-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S64 .f32) (main_arg11 : FVec F S64x32 .f32) (main_arg12 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_v48 main_v49 main_v50

def fn_part1 {F : FTy → Type} [FloatOps F] (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64x32 .f32) (main_arg12 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x32 .f32) (main_arg1 : FVec F S100000x32 .f32) (main_arg2 : IVec S2x1600000 32) (main_arg3 : FVec F S128x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64x32 .f32) (main_arg12 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x32 : Shape := ⟨2, ![100000, 32]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S12800x64 : Shape := ⟨2, ![12800, 64]⟩
abbrev S1x32 : Shape := ⟨2, ![1, 32]⟩
abbrev S5000x64 : Shape := ⟨2, ![5000, 64]⟩
abbrev S5000x32 : Shape := ⟨2, ![5000, 32]⟩

abbrev nBuf : Space → Nat
  | .hbm => 53
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S100000x64, .f32⟩
  | .hbm, ⟨14, _⟩ => ⟨S100000x64, .bf16⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .bf16⟩
  | .hbm, ⟨37, _⟩ => ⟨S64x64, .f32⟩
  | .hbm, ⟨38, _⟩ => ⟨S64x64, .f32⟩
  | .hbm, ⟨39, _⟩ => ⟨S1x64, .f32⟩
  | .hbm, ⟨40, _⟩ => ⟨S1x64, .f32⟩
  | .hbm, ⟨41, _⟩ => ⟨S1600000x64, .bf16⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S64x64, .f32⟩
  | .hbm, ⟨48, _⟩ => ⟨S64x64, .f32⟩
  | .hbm, ⟨49, _⟩ => ⟨S1x64, .f32⟩
  | .hbm, ⟨50, _⟩ => ⟨S1x64, .f32⟩
  | .hbm, ⟨51, _⟩ => ⟨S1x32, .f32⟩
  | .hbm, ⟨52, _⟩ => ⟨S100000x32, .f32⟩
  | .local _ .vmem, ⟨0, _⟩ => ⟨S12800x64, .bf16⟩
  | .local _ .vmem, ⟨1, _⟩ => ⟨S12800x64, .bf16⟩
  | .local _ .vmem, ⟨2, _⟩ => ⟨S12800x64, .bf16⟩
  | .local _ .vmem, ⟨3, _⟩ => ⟨S12800x64, .bf16⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S12800x64, .bf16⟩
  | .local _ .vmem, ⟨10, _⟩ => ⟨S12800x64, .bf16⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x32, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S12800x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  concatenates_S100000x32_S100000x32_S100000x64_d1 : Shape.Concatenates [S100000x32, S100000x32] S100000x64 1
  bitsLt_bf16_f32 : FTy.bits .bf16 < FTy.bits .f32
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x64_S64x64_0_0 : S128x64.Slices ![0, 0] S64x64
  slices_S128x64_S64x64_64_0 : S128x64.Slices ![64, 0] S64x64
  shapeCasts_S64_S1x64 : S64.ShapeCasts S1x64
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  packedbf16_S12800x64_S12800x64_0_0 : (Rect.unit (s := S12800x64) ![0, 0] S12800x64.size inb_S12800x64_S12800x64_0_0).PackedRows (EltTy.packing .bf16)
  bcast_S_S100000x64 : S_.BroadcastsInDim S100000x64 (![] : Fin 0 → Fin S100000x64.rank)
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x64_S1600000x1_S1600000x64_1_0_n_n_0_1_164_wf : GatherDims.WF S100000x64 S1600000x1 S1600000x64 [1] [0] [] [0] [] 1 ![1, 64]
  dot_S12800x64_S64x64_S12800x64_1_0_0_1_n_n_wf : DotDims.WF S12800x64 S64x64 S12800x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S1600000x64.size a
  hwx0_0 : ∀ i : grid0.Coords, EltTy.bits .bf16 = 32 ∨ (Rect.block (s := S1600000x64) S12800x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x64.size a ≤ S1600000x64.size a
  hwx0_1 : ∀ i : grid0.Coords, EltTy.bits .bf16 = 32 ∨ (Rect.block (s := S1600000x64) S12800x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S12800x64.size a ≤ S1600000x64.size a
  hwx0_7 : ∀ i : grid0.Coords, EltTy.bits .bf16 = 32 ∨ (Rect.block (s := S1600000x64) S12800x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S100000x32.size a
  hwx1_9 : ∀ i : grid1.Coords, EltTy.bits .f32 = 32 ∨ (Rect.block (s := S100000x32) S5000x32.size (cc1_transform_9 i) (hinb1_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S12800x64_S64x64_S12800x64_1_0_0_1_n_n : DotDims S12800x64 S64x64 S12800x64 where
  lhsContracting := [1]
  rhsContracting := [0]
  lhsNonContracting := [0]
  rhsNonContracting := [1]
  lhsBatch := []
  rhsBatch := []
  wf := dot_S12800x64_S64x64_S12800x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v12) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S12800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S12800x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34) S5000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x64 : Shape := ⟨2, ![1, 64]⟩
abbrev S100000x128 : Shape := ⟨2, ![100000, 128]⟩
abbrev S1x32 : Shape := ⟨2, ![1, 32]⟩

abbrev nBuf : Space → Nat
  | .hbm => 68
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S100000x64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x128, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S1x64, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x128, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  concatenates_S100000x32_S100000x32_S100000x64_d1 : Shape.Concatenates [S100000x32, S100000x32] S100000x64 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KerRun.lean ====
/-
  The idealized kernel program's run with its result array NAMED.

  The program is four segments: a stretch of host operations, the message kernel over 125 edge blocks, a second
  stretch of host operations (the scatter-add among them), and the update kernel over 20 node blocks.  Every weakly
  fair execution ends, without a fault, with every buffer outside the kernels' staging memory at the contents the
  last segment boundary names; read at the result buffer this is the array the update kernel's write-backs leave,
  and read at an argument it is the argument as launched.
-/
import proofs.«115854_j53644141527375_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, every argument as launched. -/
theorem run_named : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.RunV

end
-- ==== Proof.KerHost.lean ====
/-
  What the host operations around the two kernels compute, stretch by stretch.

  Before the message kernel: the node features h = [pos | vel]; the source and destination rows of the edge list,
  negative entries wrapped by the node count; the two gathers of h's rows (through the identity change of float
  format); the two halves of the first message weight matrix; the two message biases as 1 x 64 rows.  Between the
  kernels: the messages (format changed back) added into a zero array at their destination rows; the halves of the
  first update weight matrix; the update biases and the head's bias as rows.
-/
import proofs.«115854_j53644141527375_2_alg».proof.Proof.Gen.KernelIdeal.Frame
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable {F : FTy → Type} [FloatOps F]

local notation "dr" => Proc.devRef (τ := τ) (sig := sig) Proc.tc

/-- The node features: position beside velocity. -/
def catH (a0 a1 : (⟨S100000x32, .f32⟩ : BufTy).Contents (Elt F)) : (⟨S100000x64, .f32⟩ : BufTy).Contents (Elt F) :=
  concatenate S100000x64 1 [⟨S100000x32, a0⟩, ⟨S100000x32, a1⟩] concatenates_S100000x32_S100000x32_S100000x64_d1

/-- Row 0 of the edge list (the source nodes). -/
def srcRow (a2 : (⟨S2x1600000, .i32⟩ : BufTy).Contents (Elt F)) : (⟨S1600000, .i32⟩ : BufTy).Contents (Elt F) :=
  shapeCast _ (extractStridedSlice S1x1600000 ![0, 0] a2 slices_S2x1600000_S1x1600000_0_0) shapeCasts_S1x1600000_S1600000

/-- Row 1 of the edge list (the destination nodes). -/
def dstRow (a2 : (⟨S2x1600000, .i32⟩ : BufTy).Contents (Elt F)) : (⟨S1600000, .i32⟩ : BufTy).Contents (Elt F) :=
  shapeCast _ (extractStridedSlice S1x1600000 ![1, 0] a2 slices_S2x1600000_S1x1600000_1_0) shapeCasts_S1x1600000_S1600000

/-- A row of node numbers as gather indices: a negative entry has the node count added. -/
def wrapIdx (d : (⟨S1600000, .i32⟩ : BufTy).Contents (Elt F)) : (⟨S1600000x1, .i32⟩ : BufTy).Contents (Elt F) :=
  broadcastInDim S1600000x1 ![0] bcast_S1600000_S1600000x1_0
    (select (cmpi .slt d (broadcastInDim S1600000 ![] bcast_S_S1600000 (constantI S_ 32 0#32)))
      (addi d (broadcastInDim S1600000 ![] bcast_S_S1600000 (constantI S_ 32 100000#32))) d)

/-- The rows of h at the given indices, through the change of float format. -/
def gatherRows (h : (⟨S100000x64, .f32⟩ : BufTy).Contents (Elt F)) (ix : (⟨S1600000x1, .i32⟩ : BufTy).Contents (Elt F)) :
    (⟨S1600000x64, .bf16⟩ : BufTy).Contents (Elt F) :=
  Host.gather gather_S100000x64_S1600000x1_S1600000x64_1_0_n_n_0_1_164 (truncf .bf16 h bitsLt_bf16_f32) ix

/-- The messages (format changed back) added into a zero array at their destination rows. -/
def aggregate (d : (⟨S1600000, .i32⟩ : BufTy).Contents (Elt F)) (msg : (⟨S1600000x64, .bf16⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (extf .f32 msg bitsLt_bf16_f32)

/-! ## The first stretch, from any contents X -/

theorem h0_v0 (X : Valuation τ sig (Elt F)) : after hostOps0 X (dr main_v0) = catH (X (dr main_arg0)) (X (dr main_arg1)) := by
  after_results; try rfl
theorem h0_v5 (X : Valuation τ sig (Elt F)) : after hostOps0 X (dr main_v5) = dstRow (X (dr main_arg2)) := by
  after_results; try rfl
set_option maxHeartbeats 4000000 in
theorem h0_v12 (X : Valuation τ sig (Elt F)) :
    after hostOps0 X (dr main_v12) = gatherRows (catH (X (dr main_arg0)) (X (dr main_arg1))) (wrapIdx (dstRow (X (dr main_arg2)))) := by
  after_results; try rfl
set_option maxHeartbeats 4000000 in
theorem h0_v19 (X : Valuation τ sig (Elt F)) :
    after hostOps0 X (dr main_v19) = gatherRows (catH (X (dr main_arg0)) (X (dr main_arg1))) (wrapIdx (srcRow (X (dr main_arg2)))) := by
  after_results; try rfl
theorem h0_v20 (X : Valuation τ sig (Elt F)) :
    after hostOps0 X (dr main_v20) = extractStridedSlice S64x64 ![0, 0] (X (dr main_arg3)) slices_S128x64_S64x64_0_0 := by
  after_results; try rfl
theorem h0_v21 (X : Valuation τ sig (Elt F)) :
    after hostOps0 X (dr main_v21) = extractStridedSlice S64x64 ![64, 0] (X (dr main_arg3)) slices_S128x64_S64x64_64_0 := by
  after_results; try rfl
theorem h0_v22 (X : Valuation τ sig (Elt F)) :
    after hostOps0 X (dr main_v22) = shapeCast _ (X (dr main_arg4)) shapeCasts_S64_S1x64 := by
  after_results; try rfl
theorem h0_v23 (X : Valuation τ sig (Elt F)) :
    after hostOps0 X (dr main_v23) = shapeCast _ (X (dr main_arg6)) shapeCasts_S64_S1x64 := by
  after_results; try rfl
theorem h0_arg5 (X : Valuation τ sig (Elt F)) : after hostOps0 X (dr main_arg5) = X (dr main_arg5) := by after_results; try rfl
theorem h0_arg7 (X : Valuation τ sig (Elt F)) : after hostOps0 X (dr main_arg7) = X (dr main_arg7) := by after_results; try rfl
theorem h0_arg8 (X : Valuation τ sig (Elt F)) : after hostOps0 X (dr main_arg8) = X (dr main_arg8) := by after_results; try rfl
theorem h0_arg9 (X : Valuation τ sig (Elt F)) : after hostOps0 X (dr main_arg9) = X (dr main_arg9) := by after_results; try rfl
theorem h0_arg10 (X : Valuation τ sig (Elt F)) : after hostOps0 X (dr main_arg10) = X (dr main_arg10) := by after_results; try rfl
theorem h0_arg11 (X : Valuation τ sig (Elt F)) : after hostOps0 X (dr main_arg11) = X (dr main_arg11) := by after_results; try rfl
theorem h0_arg12 (X : Valuation τ sig (Elt F)) : after hostOps0 X (dr main_arg12) = X (dr main_arg12) := by after_results; try rfl

/-! ## The second stretch, from any contents Y -/

theorem h1_v28 (Y : Valuation τ sig (Elt F)) : after hostOps1 Y (dr main_v28) = aggregate (Y (dr main_v5)) (Y (dr main_v24)) := by
  after_results; try rfl
theorem h1_v29 (Y : Valuation τ sig (Elt F)) :
    after hostOps1 Y (dr main_v29) = extractStridedSlice S64x64 ![0, 0] (Y (dr main_arg7)) slices_S128x64_S64x64_0_0 := by
  after_results; try rfl
theorem h1_v30 (Y : Valuation τ sig (Elt F)) :
    after hostOps1 Y (dr main_v30) = extractStridedSlice S64x64 ![64, 0] (Y (dr main_arg7)) slices_S128x64_S64x64_64_0 := by
  after_results; try rfl
theorem h1_v31 (Y : Valuation τ sig (Elt F)) : after hostOps1 Y (dr main_v31) = shapeCast _ (Y (dr main_arg8)) shapeCasts_S64_S1x64 := by
  after_results; try rfl
theorem h1_v32 (Y : Valuation τ sig (Elt F)) : after hostOps1 Y (dr main_v32) = shapeCast _ (Y (dr main_arg10)) shapeCasts_S64_S1x64 := by
  after_results; try rfl
theorem h1_v33 (Y : Valuation τ sig (Elt F)) : after hostOps1 Y (dr main_v33) = shapeCast _ (Y (dr main_arg12)) shapeCasts_S32_S1x32 := by
  after_results; try rfl
theorem h1_v0 (Y : Valuation τ sig (Elt F)) : after hostOps1 Y (dr main_v0) = Y (dr main_v0) := by after_results; try rfl
theorem h1_arg9 (Y : Valuation τ sig (Elt F)) : after hostOps1 Y (dr main_arg9) = Y (dr main_arg9) := by after_results; try rfl
theorem h1_arg11 (Y : Valuation τ sig (Elt F)) : after hostOps1 Y (dr main_arg11) = Y (dr main_arg11) := by after_results; try rfl

end Cert.KernelIdeal.Chain

end
-- ==== Proof.KerBlocks0.lean ====
/-
  The message kernel's windows, block by block.

  The kernel runs over 125 grid points.  At point t the two edge-feature windows and the output window hold rows
  12800 t .. 12800 t + 12799 of their 1,600,000-row arrays (all 64 columns); the five weight and bias windows hold
  their whole arrays at every point.  The output blocks tile the output array: row r belongs to point r / 12800.
-/
import proofs.«115854_j53644141527375_2_alg».proof.Proof.Gen.KernelIdeal.Frame
import Idealize.ShloMosaic.Lib.Pipeline.Value
import Idealize.ShloMosaic.Lib.ValueIdx

set_option maxRecDepth 16384

noncomputable section

namespace Cert.KernelIdeal.Msg

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the grid: the three row-blocked windows sit at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem tN (t : Fin cfg0.N) : t.val < 125 := by have h := t.isLt; have e : cfg0.N = 125 := N_0; omega

/-- Row p of the first edge window's block at point t is row 12800 t + p of its array. -/
theorem blk0_apply (c : Dev nD) (t : Fin cfg0.N) (p : Fin 12800) (k : Fin 64) :
    iblk0 V c 0 t (ix2 p k) = V c main_v12 (ix2 (⟨t.val * 12800 + p.val, by have := tN t; have := p.isLt; omega⟩ : Fin 1600000) k) := by
  obtain ⟨e0, e1, -⟩ := idx_facts t
  show V c main_v12 (((cfg0.win 0).blk t).view.emb (ix2 p k)) = _
  refine congrArg (V c main_v12) (funext fun a => Fin.ext ?_)
  match a with
  | ⟨0, _⟩ => show win0_0.index t (0 : Fin 2) * 12800 + 1 * p.val = t.val * 12800 + p.val; omega
  | ⟨1, _⟩ => show win0_0.index t (1 : Fin 2) * 64 + 1 * k.val = k.val; omega

theorem blk1_apply (c : Dev nD) (t : Fin cfg0.N) (p : Fin 12800) (k : Fin 64) :
    iblk0 V c 1 t (ix2 p k) = V c main_v19 (ix2 (⟨t.val * 12800 + p.val, by have := tN t; have := p.isLt; omega⟩ : Fin 1600000) k) := by
  obtain ⟨-, -, e0, e1, -⟩ := idx_facts t
  show V c main_v19 (((cfg0.win 1).blk t).view.emb (ix2 p k)) = _
  refine congrArg (V c main_v19) (funext fun a => Fin.ext ?_)
  match a with
  | ⟨0, _⟩ => show win0_1.index t (0 : Fin 2) * 12800 + 1 * p.val = t.val * 12800 + p.val; omega
  | ⟨1, _⟩ => show win0_1.index t (1 : Fin 2) * 64 + 1 * k.val = k.val; omega

/-- The weight and bias windows hold their whole arrays. -/
theorem blk2_apply (c : Dev nD) (t : Fin cfg0.N) (a b : Fin 64) : iblk0 V c 2 t (ix2 a b) = V c main_v20 (ix2 a b) := by
  obtain ⟨-, -, -, -, -, -, e0, e1, -⟩ := idx_facts t
  show V c main_v20 (((cfg0.win 2).blk t).view.emb (ix2 a b)) = _
  refine congrArg (V c main_v20) (funext fun d => Fin.ext ?_)
  match d with
  | ⟨0, _⟩ => show win0_2.index t (0 : Fin 2) * 64 + 1 * a.val = a.val; omega
  | ⟨1, _⟩ => show win0_2.index t (1 : Fin 2) * 64 + 1 * b.val = b.val; omega

theorem blk3_apply (c : Dev nD) (t : Fin cfg0.N) (a b : Fin 64) : iblk0 V c 3 t (ix2 a b) = V c main_v21 (ix2 a b) := by
  obtain ⟨-, -, -, -, -, -, -, -, e0, e1, -⟩ := idx_facts t
  show V c main_v21 (((cfg0.win 3).blk t).view.emb (ix2 a b)) = _
  refine congrArg (V c main_v21) (funext fun d => Fin.ext ?_)
  match d with
  | ⟨0, _⟩ => show win0_3.index t (0 : Fin 2) * 64 + 1 * a.val = a.val; omega
  | ⟨1, _⟩ => show win0_3.index t (1 : Fin 2) * 64 + 1 * b.val = b.val; omega

theorem blk4_apply (c : Dev nD) (t : Fin cfg0.N) (a : Fin 1) (b : Fin 64) : iblk0 V c 4 t (ix2 a b) = V c main_v22 (ix2 a b) := by
  obtain ⟨-, -, -, -, -, -, -, -, -, -, e0, e1, -⟩ := idx_facts t
  show V c main_v22 (((cfg0.win 4).blk t).view.emb (ix2 a b)) = _
  refine congrArg (V c main_v22) (funext fun d => Fin.ext ?_)
  match d with
  | ⟨0, _⟩ => show win0_4.index t (0 : Fin 2) * 1 + 1 * a.val = a.val; omega
  | ⟨1, _⟩ => show win0_4.index t (1 : Fin 2) * 64 + 1 * b.val = b.val; omega

theorem blk5_apply (c : Dev nD) (t : Fin cfg0.N) (a b : Fin 64) : iblk0 V c 5 t (ix2 a b) = V c main_arg5 (ix2 a b) := by
  obtain ⟨-, -, -, -, -, -, -, -, -, -, -, -, e0, e1, -⟩ := idx_facts t
  show V c main_arg5 (((cfg0.win 5).blk t).view.emb (ix2 a b)) = _
  refine congrArg (V c main_arg5) (funext fun d => Fin.ext ?_)
  match d with
  | ⟨0, _⟩ => show win0_5.index t (0 : Fin 2) * 64 + 1 * a.val = a.val; omega
  | ⟨1, _⟩ => show win0_5.index t (1 : Fin 2) * 64 + 1 * b.val = b.val; omega

theorem blk6_apply (c : Dev nD) (t : Fin cfg0.N) (a : Fin 1) (b : Fin 64) : iblk0 V c 6 t (ix2 a b) = V c main_v23 (ix2 a b) := by
  obtain ⟨-, -, -, -, -, -, -, -, -, -, -, -, -, -, e0, e1⟩ := idx_facts t
  show V c main_v23 (((cfg0.win 6).blk t).view.emb (ix2 a b)) = _
  refine congrArg (V c main_v23) (funext fun d => Fin.ext ?_)
  match d with
  | ⟨0, _⟩ => show win0_6.index t (0 : Fin 2) * 1 + 1 * a.val = a.val; omega
  | ⟨1, _⟩ => show win0_6.index t (1 : Fin 2) * 64 + 1 * b.val = b.val; omega

/-- Where the output block's entry (p, q) at point t sits in the output array. -/
theorem out_emb (t : Fin cfg0.N) (p : Fin 12800) (q : Fin 64) :
    ((cfg0.win 7).blk t).view.emb (ix2 p q) = ix2 (⟨t.val * 12800 + p.val, by have := tN t; have := p.isLt; omega⟩ : Fin 1600000) q := by
  obtain ⟨-, -, -, -, e0, e1, -⟩ := idx_facts t
  refine funext fun a => Fin.ext ?_
  match a with
  | ⟨0, _⟩ => show win0_7.index t (0 : Fin 2) * 12800 + 1 * p.val = t.val * 12800 + p.val; omega
  | ⟨1, _⟩ => show win0_7.index t (1 : Fin 2) * 64 + 1 * q.val = q.val; omega

/-- An index of the output array is in point t's block iff each coordinate is in the block's range on its axis. -/
theorem mem_blk (t : Fin cfg0.N) (i : S1600000x64.Idx) :
    i ∈ ((cfg0.win 7).blk t).view.set ↔ ∀ a : Fin 2, win0_7.index t a * S12800x64.size a ≤ (i a).val ∧ (i a).val < win0_7.index t a * S12800x64.size a + S12800x64.size a := by
  show i ∈ ((View.whole main_v24).slice (win0_7.rect t)).set ↔ _
  rw [View.set_slice_whole, Rect.mem_set_unit]
  exact Iff.rfl

/-- Every index of the output array is in the block of the point its row belongs to. -/
theorem cover (i : S1600000x64.Idx) : ∃ t : Fin cfg0.N, (cfg0.win 7).flush t = true ∧ i ∈ ((cfg0.win 7).blk t).view.set := by
  have hi0 : (i 0).val < 1600000 := (i 0).isLt
  have hi1 : (i 1).val < 64 := (i 1).isLt
  have hN : cfg0.N = 125 := N_0
  let t : Fin cfg0.N := ⟨(i 0).val / 12800, by rw [hN]; omega⟩
  obtain ⟨-, -, -, -, e0, e1, -⟩ := idx_facts t
  have ht : t.val = (i 0).val / 12800 := rfl
  refine ⟨t, flush0_7 t, ?_⟩
  rw [mem_blk]
  intro a
  match a with
  | ⟨0, _⟩ => show win0_7.index t (0 : Fin 2) * 12800 ≤ (i 0).val ∧ (i 0).val < win0_7.index t (0 : Fin 2) * 12800 + 12800; omega
  | ⟨1, _⟩ => show win0_7.index t (1 : Fin 2) * 64 ≤ (i 1).val ∧ (i 1).val < win0_7.index t (1 : Fin 2) * 64 + 64; omega

end Cert.KernelIdeal.Msg

end
-- ==== Proof.Spec.lean ====
/-
  The mathematics both programs compute, row by row, over the extended reals.

  A graph-network step: each edge's message is a two-layer perceptron of the two end nodes' feature rows
  laid side by side (64 + 64 features); each node's update is the same kind of perceptron of its own row
  beside the sum of the messages arriving at it, followed by a linear head to 32 outputs.

  One program multiplies the joined 128-feature row by the whole 128 x 64 weight matrix; the other
  multiplies each 64-feature half by its half of the matrix and adds the two products.  The two agree
  because a finite sum over 128 indices is the sum over the first 64 plus the sum over the last 64 —
  a law of any commutative additive monoid, so it holds on the extended reals with no finiteness
  hypothesis.
-/
import Mathlib.Data.EReal.Basic
import Mathlib.Algebra.BigOperators.Fin
import Idealize.ShloMosaic.PureOps.Ideal

noncomputable section

namespace Cert.Gnn

open Idealize.ShloMosaic

/-- The value of the all-zero float pattern (it is the real number zero, but nothing here needs that:
    both programs take the maximum against the same value). -/
abbrev Z : EReal := Ideal.ofBits .f32 0x00000000#32

/-- Two 64-feature rows laid side by side as one 128-feature row. -/
def join (a b : Fin 64 → EReal) : Fin 128 → EReal :=
  fun k => if h : k.val < 64 then a ⟨k.val, h⟩ else b ⟨k.val - 64, by have := k.isLt; omega⟩

/-- Rows 0..63 of a 128-row matrix. -/
def top (w : Fin 128 → Fin 64 → EReal) : Fin 64 → Fin 64 → EReal :=
  fun k j => w ⟨k.val, by have := k.isLt; omega⟩ j

/-- Rows 64..127 of a 128-row matrix. -/
def bot (w : Fin 128 → Fin 64 → EReal) : Fin 64 → Fin 64 → EReal :=
  fun k j => w ⟨k.val + 64, by have := k.isLt; omega⟩ j

/-- The two-layer perceptron on a row given as two halves, each half multiplied by its own
    64 x 64 matrix: max (a wa + b wb + b1, 0) w2 + b2, at output feature j. -/
def mlpSplit (a b : Fin 64 → EReal) (wa wb : Fin 64 → Fin 64 → EReal) (b1 : Fin 64 → EReal)
    (w2 : Fin 64 → Fin 64 → EReal) (b2 : Fin 64 → EReal) (j : Fin 64) : EReal :=
  (∑ k : Fin 64, max (((∑ k' : Fin 64, a k' * wa k' k) + (∑ k' : Fin 64, b k' * wb k' k)) + b1 k) Z * w2 k j) + b2 j

/-- The same perceptron on the joined 128-feature row against the whole 128 x 64 matrix:
    max (x w1 + b1, 0) w2 + b2, at output feature j. -/
def mlpJoin (x : Fin 128 → EReal) (w1 : Fin 128 → Fin 64 → EReal) (b1 : Fin 64 → EReal)
    (w2 : Fin 64 → Fin 64 → EReal) (b2 : Fin 64 → EReal) (j : Fin 64) : EReal :=
  (∑ k : Fin 64, max ((∑ k' : Fin 128, x k' * w1 k' k) + b1 k) Z * w2 k j) + b2 j

/-- The linear head: u pw + pb, at output j. -/
def head (u : Fin 64 → EReal) (pw : Fin 64 → Fin 32 → EReal) (pb : Fin 32 → EReal) (j : Fin 32) : EReal :=
  (∑ k : Fin 64, u k * pw k j) + pb j

/-- A sum over 128 indices is the sum over the first 64 plus the sum over the last 64. -/
theorem sum_halves (f : Fin 128 → EReal) :
    ∑ k : Fin 128, f k
      = (∑ k : Fin 64, f ⟨k.val, by have := k.isLt; omega⟩) + ∑ k : Fin 64, f ⟨k.val + 64, by have := k.isLt; omega⟩ := by
  have h := Fin.sum_univ_add (M := EReal) (a := 64) (b := 64) (fun k : Fin (64 + 64) => f ⟨k.val, by have := k.isLt; omega⟩)
  refine (Eq.trans ?_ h).trans ?_
  · rfl
  · refine congrArg₂ (· + ·) (Finset.sum_congr rfl fun k _ => ?_) (Finset.sum_congr rfl fun k _ => ?_)
    · rfl
    · exact congrArg f (Fin.ext (by show 64 + k.val = k.val + 64; omega))

/-- The joined row against the whole matrix is the two halves against the two half matrices. -/
theorem dot_join (a b : Fin 64 → EReal) (w : Fin 128 → Fin 64 → EReal) (k : Fin 64) :
    ∑ k' : Fin 128, join a b k' * w k' k
      = (∑ k' : Fin 64, a k' * top w k' k) + ∑ k' : Fin 64, b k' * bot w k' k := by
  rw [sum_halves]
  refine congrArg₂ (· + ·) (Finset.sum_congr rfl fun k' _ => ?_) (Finset.sum_congr rfl fun k' _ => ?_)
  · have h : k'.val < 64 := k'.isLt
    show join a b ⟨k'.val, _⟩ * _ = a k' * top w k' k
    unfold join top
    rw [dif_pos h]
  · have h : ¬ (k'.val + 64 < 64) := by omega
    show join a b ⟨k'.val + 64, _⟩ * _ = b k' * bot w k' k
    unfold join bot
    rw [dif_neg h]
    exact congrArg (· * _) (congrArg b (Fin.ext (by show k'.val + 64 - 64 = k'.val; omega)))

/-- So the perceptron on the joined row is the perceptron on the two halves. -/
theorem mlpJoin_join (a b : Fin 64 → EReal) (w1 : Fin 128 → Fin 64 → EReal) (b1 : Fin 64 → EReal)
    (w2 : Fin 64 → Fin 64 → EReal) (b2 : Fin 64 → EReal) (j : Fin 64) :
    mlpJoin (join a b) w1 b1 w2 b2 j = mlpSplit a b (top w1) (bot w1) b1 w2 b2 j := by
  unfold mlpJoin mlpSplit
  refine congrArg (· + b2 j) (Finset.sum_congr rfl fun k _ => ?_)
  rw [dot_join]

end Cert.Gnn

end
-- ==== Proof.KerPay.lean ====
/-
  What each kernel body stores, entry by entry, over the extended reals.

  The message body holds two blocks of 12800 half rows (the two end nodes' 64 features of 12800
  edges), two 64 x 64 half matrices, a bias row, a second 64 x 64 matrix and a second bias row.
  Entry (p, q) of what it stores is the two-layer perceptron of the specification on the two half
  rows p:

      sum_k max ((sum_k' a[p,k'] wa[k',k] + sum_k' b[p,k'] wb[k',k]) + b1[k], 0) * w2[k,q] + b2[q].

  Each matrix product is added to an all-zero matrix, so its entry (p, q) is just the sum over the 64
  shared indices k of left (p, k) times right (k, q); a change of float format is the
  identity on extended reals; a bias row repeated down the rows reads its entry q; a cast to the same
  shape changes nothing.

  The update body holds two blocks of 5000 half rows (a node's own 64 features and the 64 summed
  messages arriving at it), the same kind of weights, and a 64 x 32 head matrix with its bias row.
  Entry (p, q) of what it stores is the linear head of that perceptron:

      sum_k mlp[p,k] * pw[k,q] + pb[q].
-/
import proofs.«115854_j53644141527375_2_alg».proof.Proof.Gen.KernelIdeal.Skeleton
import proofs.«115854_j53644141527375_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ### The [12800,64] by [64,64] matrix product: the operand entries a result entry reads, by coordinates -/

theorem lhs0_0 (i : S12800x64.Idx) (c : dot_S12800x64_S64x64_S12800x64_1_0_0_1_n_n.contr.Idx) :
    (dot_S12800x64_S64x64_S12800x64_1_0_0_1_n_n.lhsIdx i c 0).val = (i 0).val := by
  unfold DotDims.lhsIdx
  rw [dif_neg (show ¬(0 : Fin S12800x64.rank) ∈ dot_S12800x64_S64x64_S12800x64_1_0_0_1_n_n.lhsBatch by decide), dif_pos (show (0 : Fin S12800x64.rank) ∈ dot_S12800x64_S64x64_S12800x64_1_0_0_1_n_n.lhsNonContracting by decide)]
  rfl
theorem lhs0_1 (i : S12800x64.Idx) (c : dot_S12800x64_S64x64_S12800x64_1_0_0_1_n_n.contr.Idx) :
    (dot_S12800x64_S64x64_S12800x64_1_0_0_1_n_n.lhsIdx i c 1).val = (c ⟨0, by decide⟩).val :=
  dot_S12800x64_S64x64_S12800x64_1_0_0_1_n_n.lhsIdx_val_of_single rfl i c
theorem rhs0_0 (i : S12800x64.Idx) (c : dot_S12800x64_S64x64_S12800x64_1_0_0_1_n_n.contr.Idx) :
    (dot_S12800x64_S64x64_S12800x64_1_0_0_1_n_n.rhsIdx i c 0).val = (c ⟨0, by decide⟩).val :=
  dot_S12800x64_S64x64_S12800x64_1_0_0_1_n_n.rhsIdx_val_of_single rfl i c
theorem rhs0_1 (i : S12800x64.Idx) (c : dot_S12800x64_S64x64_S12800x64_1_0_0_1_n_n.contr.Idx) :
    (dot_S12800x64_S64x64_S12800x64_1_0_0_1_n_n.rhsIdx i c 1).val = (i 1).val := by
  unfold DotDims.rhsIdx
  rw [dif_neg (show ¬(1 : Fin S64x64.rank) ∈ dot_S12800x64_S64x64_S12800x64_1_0_0_1_n_n.rhsBatch by decide), dif_pos (show (1 : Fin S64x64.rank) ∈ dot_S12800x64_S64x64_S12800x64_1_0_0_1_n_n.rhsNonContracting by decide)]
  rfl

/-- The matrix product added to the all-zero matrix, entry (p, q): the sum over the 64 shared
    indices k of left (p, k) times right (k, q). -/
theorem mm0_apply {φ₁ φ₂ : FTy} (l : FVec Ideal S12800x64 φ₁) (r : FVec Ideal S64x64 φ₂) (p : Fin 12800) (q : Fin 64) :
    matmul dot_S12800x64_S64x64_S12800x64_1_0_0_1_n_n none l r (constant (F := Ideal) S12800x64 .f32 0x00000000#32) (ix2 p q)
      = ∑ k : Fin 64, l (ix2 p k) * r (ix2 k q) := by
  show FloatOps.matmul dot_S12800x64_S64x64_S12800x64_1_0_0_1_n_n none l r (constant (F := Ideal) S12800x64 .f32 0x00000000#32) (ix2 p q) = _
  rw [Ideal.matmul_constant_zero_apply, ← Equiv.sum_comp (contrEquiv1 dot_S12800x64_S64x64_S12800x64_1_0_0_1_n_n 64 rfl rfl).symm]
  refine Finset.sum_congr rfl fun k _ => ?_
  have hk := contrEquiv1_symm_val dot_S12800x64_S64x64_S12800x64_1_0_0_1_n_n 64 rfl rfl k
  have el : dot_S12800x64_S64x64_S12800x64_1_0_0_1_n_n.lhsIdx (ix2 p q) ((contrEquiv1 dot_S12800x64_S64x64_S12800x64_1_0_0_1_n_n 64 rfl rfl).symm k) = ix2 p k := funext fun a => Fin.ext (by
    match a with
    | ⟨0, _⟩ => exact lhs0_0 _ _
    | ⟨1, _⟩ => exact (lhs0_1 _ _).trans hk)
  have er : dot_S12800x64_S64x64_S12800x64_1_0_0_1_n_n.rhsIdx (ix2 p q) ((contrEquiv1 dot_S12800x64_S64x64_S12800x64_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-! ### The [5000,64] by [64,64] matrix product: the operand entries a result entry reads, by coordinates -/

theorem lhs1_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
theorem rhs1_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
theorem rhs1_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix product added to the all-zero matrix, entry (p, q): the sum over the 64 shared
    indices k of left (p, k) times right (k, q). -/
theorem mm1_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs1_0 _ _
    | ⟨1, _⟩ => exact (lhs1_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs1_0 _ _).trans hk
    | ⟨1, _⟩ => exact rhs1_1 _ _)
  rw [el, er]

/-! ### The [5000,64] by [64,32] matrix product: the operand entries a result entry reads, by coordinates -/

theorem lhs2_0 (i : S5000x32.Idx) (c : dot_S5000x64_S64x32_S5000x32_1_0_0_1_n_n.contr.Idx) :
    (dot_S5000x64_S64x32_S5000x32_1_0_0_1_n_n.lhsIdx i c 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs2_1 (i : S5000x32.Idx) (c : dot_S5000x64_S64x32_S5000x32_1_0_0_1_n_n.contr.Idx) :
    (dot_S5000x64_S64x32_S5000x32_1_0_0_1_n_n.lhsIdx i c 1).val = (c ⟨0, by decide⟩).val :=
  dot_S5000x64_S64x32_S5000x32_1_0_0_1_n_n.lhsIdx_val_of_single rfl i c
theorem rhs2_0 (i : S5000x32.Idx) (c : dot_S5000x64_S64x32_S5000x32_1_0_0_1_n_n.contr.Idx) :
    (dot_S5000x64_S64x32_S5000x32_1_0_0_1_n_n.rhsIdx i c 0).val = (c ⟨0, by decide⟩).val :=
  dot_S5000x64_S64x32_S5000x32_1_0_0_1_n_n.rhsIdx_val_of_single rfl i c
theorem rhs2_1 (i : S5000x32.Idx) (c : dot_S5000x64_S64x32_S5000x32_1_0_0_1_n_n.contr.Idx) :
    (dot_S5000x64_S64x32_S5000x32_1_0_0_1_n_n.rhsIdx i c 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The matrix product added to the all-zero matrix, entry (p, q): the sum over the 64 shared
    indices k of left (p, k) times right (k, q). -/
theorem mm2_apply {φ₁ φ₂ : FTy} (l : FVec Ideal S5000x64 φ₁) (r : FVec Ideal S64x32 φ₂) (p : Fin 5000) (q : Fin 32) :
    matmul dot_S5000x64_S64x32_S5000x32_1_0_0_1_n_n none l r (constant (F := Ideal) S5000x32 .f32 0x00000000#32) (ix2 p q)
      = ∑ k : Fin 64, l (ix2 p k) * r (ix2 k q) := by
  show FloatOps.matmul dot_S5000x64_S64x32_S5000x32_1_0_0_1_n_n none l r (constant (F := Ideal) S5000x32 .f32 0x00000000#32) (ix2 p q) = _
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs2_0 _ _
    | ⟨1, _⟩ => exact (lhs2_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-- A [1,64] row repeated down 12800 rows, entry (p, q): the row's entry q. -/
theorem brow0_apply {α : Type} (x : S1x64.Idx → α) (p : Fin 12800) (q : Fin 64) :
    broadcastTo S12800x64 x broadcasts_S1x64_S12800x64 (ix2 p q) = x (ix2 (0 : Fin 1) q) := by
  refine broadcastTo_apply x broadcasts_S1x64_S12800x64 (ix2 p q) (ix2 (0 : Fin 1) q) (fun a => ?_)
  match a with
  | ⟨0, _⟩ => show 0 = if (1 : Nat) = 1 then 0 else _; rw [if_pos rfl]
  | ⟨1, _⟩ => show q.val = if (64 : Nat) = 1 then 0 else q.val; rw [if_neg (by decide)]

/-- A [1,64] row repeated down 5000 rows, entry (p, q): the row's entry q. -/
theorem brow1_apply {α : Type} (x : S1x64.Idx → α) (p : Fin 5000) (q : Fin 64) :
    broadcastTo S5000x64 x broadcasts_S1x64_S5000x64 (ix2 p q) = x (ix2 (0 : Fin 1) q) := by
  refine broadcastTo_apply x broadcasts_S1x64_S5000x64 (ix2 p q) (ix2 (0 : Fin 1) q) (fun a => ?_)
  match a with
  | ⟨0, _⟩ => show 0 = if (1 : Nat) = 1 then 0 else _; rw [if_pos rfl]
  | ⟨1, _⟩ => show q.val = if (64 : Nat) = 1 then 0 else q.val; rw [if_neg (by decide)]

/-- A [1,32] row repeated down 5000 rows, entry (p, q): the row's entry q. -/
theorem brow2_apply {α : Type} (x : S1x32.Idx → α) (p : Fin 5000) (q : Fin 32) :
    broadcastTo S5000x32 x broadcasts_S1x32_S5000x32 (ix2 p q) = x (ix2 (0 : Fin 1) q) := by
  refine broadcastTo_apply x broadcasts_S1x32_S5000x32 (ix2 p q) (ix2 (0 : Fin 1) q) (fun a => ?_)
  match a with
  | ⟨0, _⟩ => show 0 = if (1 : Nat) = 1 then 0 else _; rw [if_pos rfl]
  | ⟨1, _⟩ => show q.val = if (32 : Nat) = 1 then 0 else q.val; rw [if_neg (by decide)]

/-! ### The perceptron on 12800 rows, entry by entry -/

/-- The hidden layer, entry (p, k): the two half rows p against column k of the two half matrices,
    plus the bias, then the maximum with zero. -/
theorem hid0_apply {φ ψ : FTy} (a b : FVec Ideal S12800x64 φ) (wa wb : FVec Ideal S64x64 ψ) (b1 : FVec Ideal S1x64 .f32)
    (p : Fin 12800) (k : Fin 64) :
    (maximumf (addf (addf (matmul dot_S12800x64_S64x64_S12800x64_1_0_0_1_n_n none a wa (constant (F := Ideal) S12800x64 .f32 0x00000000#32)) (matmul dot_S12800x64_S64x64_S12800x64_1_0_0_1_n_n none b wb (constant (F := Ideal) S12800x64 .f32 0x00000000#32))) (broadcastTo S12800x64 b1 broadcasts_S1x64_S12800x64)) (broadcast S12800x64 (FloatOps.ofBits (F := Ideal) .f32 0x00000000#32))) (ix2 p k)
      = max (((∑ k' : Fin 64, a (ix2 p k') * wa (ix2 k' k)) + (∑ k' : Fin 64, b (ix2 p k') * wb (ix2 k' k))) + b1 (ix2 (0 : Fin 1) k)) Cert.Gnn.Z := by
  refine (maximumf_apply _ _ _).trans ?_
  refine congrArg₂ max ?_ rfl
  refine (addf_apply _ _ _).trans ?_
  refine congrArg₂ (· + ·) ?_ (brow0_apply b1 p k)
  refine (addf_apply _ _ _).trans ?_
  exact congrArg₂ (· + ·) (mm0_apply a wa p k) (mm0_apply b wb p k)

/-- The whole perceptron, entry (p, q): the hidden row p against column q of the second matrix, plus
    the second bias. -/
theorem mlp0_apply {φ ψ χ : FTy} (a b : FVec Ideal S12800x64 φ) (wa wb : FVec Ideal S64x64 ψ) (b1 : FVec Ideal S1x64 .f32)
    (w2 : FVec Ideal S64x64 χ) (b2 : FVec Ideal S1x64 .f32) (p : Fin 12800) (q : Fin 64) :
    (truncf .bf16 (addf (matmul dot_S12800x64_S64x64_S12800x64_1_0_0_1_n_n none (truncf .bf16 (maximumf (addf (addf (matmul dot_S12800x64_S64x64_S12800x64_1_0_0_1_n_n none a wa (constant (F := Ideal) S12800x64 .f32 0x00000000#32)) (matmul dot_S12800x64_S64x64_S12800x64_1_0_0_1_n_n none b wb (constant (F := Ideal) S12800x64 .f32 0x00000000#32))) (broadcastTo S12800x64 b1 broadcasts_S1x64_S12800x64)) (broadcast S12800x64 (FloatOps.ofBits (F := Ideal) .f32 0x00000000#32))) bitsLt_bf16_f32) w2 (constant (F := Ideal) S12800x64 .f32 0x00000000#32))
        (broadcastTo S12800x64 b2 broadcasts_S1x64_S12800x64)) bitsLt_bf16_f32 : FVec Ideal S12800x64 .bf16) (ix2 p q)
      = Cert.Gnn.mlpSplit (fun k => a (ix2 p k)) (fun k => b (ix2 p k)) (fun k' k => wa (ix2 k' k)) (fun k' k => wb (ix2 k' k))
          (fun k => b1 (ix2 (0 : Fin 1) k)) (fun k' k => w2 (ix2 k' k)) (fun k => b2 (ix2 (0 : Fin 1) k)) q := by
  refine (truncf_apply (φ := .f32) (ψ := .bf16) _ bitsLt_bf16_f32 _).trans ?_
  refine (addf_apply _ _ _).trans ?_
  refine (congrArg₂ (· + ·) (mm0_apply _ w2 p q) (brow0_apply b2 p q)).trans ?_
  unfold Cert.Gnn.mlpSplit
  refine congrArg (· + b2 (ix2 (0 : Fin 1) q)) (Finset.sum_congr rfl fun k _ => ?_)
  refine congrArg (· * w2 (ix2 k q)) ?_
  refine (truncf_apply (φ := .f32) (ψ := .bf16) _ bitsLt_bf16_f32 _).trans ?_
  exact hid0_apply a b wa wb b1 p k

/-! ### The perceptron on 5000 rows, entry by entry -/

/-- The hidden layer, entry (p, k): the two half rows p against column k of the two half matrices,
    plus the bias, then the maximum with zero. -/
theorem hid1_apply {φ ψ : FTy} (a b : FVec Ideal S5000x64 φ) (wa wb : FVec Ideal S64x64 ψ) (b1 : FVec Ideal S1x64 .f32)
    (p : Fin 5000) (k : Fin 64) :
    (maximumf (addf (addf (matmul dot_S5000x64_S64x64_S5000x64_1_0_0_1_n_n none a wa (constant (F := Ideal) S5000x64 .f32 0x00000000#32)) (matmul dot_S5000x64_S64x64_S5000x64_1_0_0_1_n_n none b wb (constant (F := Ideal) S5000x64 .f32 0x00000000#32))) (broadcastTo S5000x64 b1 broadcasts_S1x64_S5000x64)) (broadcast S5000x64 (FloatOps.ofBits (F := Ideal) .f32 0x00000000#32))) (ix2 p k)
      = max (((∑ k' : Fin 64, a (ix2 p k') * wa (ix2 k' k)) + (∑ k' : Fin 64, b (ix2 p k') * wb (ix2 k' k))) + b1 (ix2 (0 : Fin 1) k)) Cert.Gnn.Z := by
  refine (maximumf_apply _ _ _).trans ?_
  refine congrArg₂ max ?_ rfl
  refine (addf_apply _ _ _).trans ?_
  refine congrArg₂ (· + ·) ?_ (brow1_apply b1 p k)
  refine (addf_apply _ _ _).trans ?_
  exact congrArg₂ (· + ·) (mm1_apply a wa p k) (mm1_apply b wb p k)

/-- The whole perceptron, entry (p, q): the hidden row p against column q of the second matrix, plus
    the second bias. -/
theorem mlp1_apply {φ ψ χ : FTy} (a b : FVec Ideal S5000x64 φ) (wa wb : FVec Ideal S64x64 ψ) (b1 : FVec Ideal S1x64 .f32)
    (w2 : FVec Ideal S64x64 χ) (b2 : FVec Ideal S1x64 .f32) (p : Fin 5000) (q : Fin 64) :
    (truncf .bf16 (addf (matmul dot_S5000x64_S64x64_S5000x64_1_0_0_1_n_n none (truncf .bf16 (maximumf (addf (addf (matmul dot_S5000x64_S64x64_S5000x64_1_0_0_1_n_n none a wa (constant (F := Ideal) S5000x64 .f32 0x00000000#32)) (matmul dot_S5000x64_S64x64_S5000x64_1_0_0_1_n_n none b wb (constant (F := Ideal) S5000x64 .f32 0x00000000#32))) (broadcastTo S5000x64 b1 broadcasts_S1x64_S5000x64)) (broadcast S5000x64 (FloatOps.ofBits (F := Ideal) .f32 0x00000000#32))) bitsLt_bf16_f32) w2 (constant (F := Ideal) S5000x64 .f32 0x00000000#32))
        (broadcastTo S5000x64 b2 broadcasts_S1x64_S5000x64)) bitsLt_bf16_f32 : FVec Ideal S5000x64 .bf16) (ix2 p q)
      = Cert.Gnn.mlpSplit (fun k => a (ix2 p k)) (fun k => b (ix2 p k)) (fun k' k => wa (ix2 k' k)) (fun k' k => wb (ix2 k' k))
          (fun k => b1 (ix2 (0 : Fin 1) k)) (fun k' k => w2 (ix2 k' k)) (fun k => b2 (ix2 (0 : Fin 1) k)) q := by
  refine (truncf_apply (φ := .f32) (ψ := .bf16) _ bitsLt_bf16_f32 _).trans ?_
  refine (addf_apply _ _ _).trans ?_
  refine (congrArg₂ (· + ·) (mm1_apply _ w2 p q) (brow1_apply b2 p q)).trans ?_
  unfold Cert.Gnn.mlpSplit
  refine congrArg (· + b2 (ix2 (0 : Fin 1) q)) (Finset.sum_congr rfl fun k _ => ?_)
  refine congrArg (· * w2 (ix2 k q)) ?_
  refine (truncf_apply (φ := .f32) (ψ := .bf16) _ bitsLt_bf16_f32 _).trans ?_
  exact hid1_apply a b wa wb b1 p k

/-! ### The two bodies -/

/-- The message body's store, entry (p, q): the perceptron on the two half rows p. -/
theorem pay0_apply (x0 x1 : Vec Ideal S12800x64 .bf16) (x2 x3 : Vec Ideal S64x64 .f32) (x4 : Vec Ideal S1x64 .f32) (x5 : Vec Ideal S64x64 .f32) (x6 : Vec Ideal S1x64 .f32) (p : Fin 12800) (q : Fin 64) :
    k0_pay1 (F := Ideal) x0 x1 x2 x3 x4 x5 x6 (ix2 p q)
      = Cert.Gnn.mlpSplit (fun k => x0 (ix2 p k)) (fun k => x1 (ix2 p k)) (fun k' k => x2 (ix2 k' k)) (fun k' k => x3 (ix2 k' k))
          (fun k => x4 (ix2 (0 : Fin 1) k)) (fun k' k => x5 (ix2 k' k)) (fun k => x6 (ix2 (0 : Fin 1) k)) q := by
  unfold k0_pay1
  simp only [shapeCast_self]
  exact mlp0_apply x0 x1 (truncf .bf16 x2 bitsLt_bf16_f32) (truncf .bf16 x3 bitsLt_bf16_f32) x4 (truncf .bf16 x5 bitsLt_bf16_f32) x6 p q

/-- The update body's store, entry (p, q): the linear head of the perceptron on the two half rows p. -/
theorem pay1_apply (x0 x1 : Vec Ideal S5000x64 .f32) (x2 x3 : Vec Ideal S64x64 .f32) (x4 : Vec Ideal S1x64 .f32) (x5 : Vec Ideal S64x64 .f32) (x6 : Vec Ideal S1x64 .f32) (x7 : Vec Ideal S64x32 .f32) (x8 : Vec Ideal S1x32 .f32) (p : Fin 5000) (q : Fin 32) :
    k1_pay1 (F := Ideal) (k1_pay2 (F := Ideal) x0 x1 x2 x3 x4 x5 x6 x7) (k1_pay3 (F := Ideal) x8) (ix2 p q)
      = Cert.Gnn.head (Cert.Gnn.mlpSplit (fun k => x0 (ix2 p k)) (fun k => x1 (ix2 p k)) (fun k' k => x2 (ix2 k' k)) (fun k' k => x3 (ix2 k' k))
          (fun k => x4 (ix2 (0 : Fin 1) k)) (fun k' k => x5 (ix2 k' k)) (fun k => x6 (ix2 (0 : Fin 1) k))) (fun k jj => x7 (ix2 k jj)) (fun jj => x8 (ix2 (0 : Fin 1) jj)) q := by
  unfold k1_pay1 k1_pay2 k1_pay3
  simp only [shapeCast_self]
  refine (addf_apply _ _ _).trans ?_
  refine (congrArg₂ (· + ·) (mm2_apply _ (truncf .bf16 x7 bitsLt_bf16_f32) p q) (brow2_apply x8 p q)).trans ?_
  unfold Cert.Gnn.head
  refine congrArg (· + x8 (ix2 (0 : Fin 1) q)) (Finset.sum_congr rfl fun k _ => ?_)
  refine congrArg (· * x7 (ix2 k q)) ?_
  exact mlp1_apply (truncf .bf16 x0 bitsLt_bf16_f32) (truncf .bf16 x1 bitsLt_bf16_f32) (truncf .bf16 x2 bitsLt_bf16_f32)
    (truncf .bf16 x3 bitsLt_bf16_f32) x4 (truncf .bf16 x5 bitsLt_bf16_f32) x6 p k

end Cert.KernelIdeal.Pay

end
-- ==== Proof.KerMsg.lean ====
/-
  The message kernel's output array, as one function of the arrays it is entered with.

  Point t writes back rows 12800 t .. 12800 t + 12799; entry (p, q) of what it writes is the two-layer perceptron
  of Spec.lean applied to row p of the two edge-feature blocks, against the two weight halves, the biases and the
  second weight matrix the point holds whole.  The blocks tile the array, so the array ends holding, at every
  (row, column), that perceptron of the row's features.
-/
import proofs.«115854_j53644141527375_2_alg».proof.Proof.KerBlocks0
import proofs.«115854_j53644141527375_2_alg».proof.Proof.KerPay
import proofs.«115854_j53644141527375_2_alg».proof.Proof.Spec

set_option maxRecDepth 16384

noncomputable section

namespace Cert.KernelIdeal.Msg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The message array: at (edge e, feature j) the perceptron of the two gathered feature rows of edge e. -/
def msgArr (hi hj : S1600000x64.Idx → Elt Ideal .bf16) (wa wb : S64x64.Idx → Elt Ideal .f32) (b1 : S1x64.Idx → Elt Ideal .f32)
    (w2 : S64x64.Idx → Elt Ideal .f32) (b2 : S1x64.Idx → Elt Ideal .f32) : S1600000x64.Idx → Elt Ideal .bf16 :=
  fun i => Cert.Gnn.mlpSplit (fun k => hi (ix2 (⟨(i 0).val, idx2_lt0 i⟩ : Fin 1600000) k)) (fun k => hj (ix2 (⟨(i 0).val, idx2_lt0 i⟩ : Fin 1600000) k))
    (fun k' k => wa (ix2 k' k)) (fun k' k => wb (ix2 k' k)) (fun k => b1 (ix2 (0 : Fin 1) k))
    (fun k' k => w2 (ix2 k' k)) (fun k => b2 (ix2 (0 : Fin 1) k)) (⟨(i 1).val, idx2_lt1 i⟩ : Fin 64)

/-- What point t writes back is block t of the message array of the arrays the region is entered with. -/
theorem flushed_eq (c : Dev nD) (t : Fin cfg0.N) :
    (dat0 V c).flushed 7 t = ((cfg0.win 7).blk t).view.read (Elt Ideal)
      (msgArr (V c main_v12) (V c main_v19) (V c main_v20) (V c main_v21) (V c main_v22) (V c main_arg5) (V c main_v23)) := by
  show (cfg0.win 7).cut (grid0.coords t) ((dat0 V c).after 7 t) = _
  rw [after0_7]
  unfold out0_7
  rw [View.canon_unit_zero hz]
  simp only [View.ld_unit_zero (S := S12800x64) hz, View.ld_unit_zero (S := S64x64) hz, View.ld_unit_zero (S := S1x64) hz]
  funext j
  obtain ⟨p, q, rfl⟩ : ∃ (p : Fin 12800) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (iblk0 V c 6 t) (ix2 p q)
    = msgArr (V c main_v12) (V c main_v19) (V c main_v20) (V c main_v21) (V c main_v22) (V c main_arg5) (V c main_v23) (((cfg0.win 7).blk t).view.emb (ix2 p q))
  rw [out_emb t p q]
  refine (Cert.KernelIdeal.Pay.pay0_apply (iblk0 V c 0 t) (iblk0 V c 1 t) (iblk0 V c 2 t) (iblk0 V c 3 t) (iblk0 V c 4 t) (iblk0 V c 5 t) (iblk0 V c 6 t) p q).trans ?_
  unfold msgArr
  simp only [blk0_apply V c t, blk1_apply V c t, blk2_apply V c t, blk3_apply V c t, blk4_apply V c t, blk5_apply V c t, blk6_apply V c t]

/-- The array the message kernel leaves. -/
theorem final (c : Dev nD) :
    (dat0 V c).arrAt 7 cfg0.N = msgArr (V c main_v12) (V c main_v19) (V c main_v20) (V c main_v21) (V c main_v22) (V c main_arg5) (V c main_v23) :=
  (dat0 V c).arrAt_eq_of_cover 7 _ (fun t _ => flushed_eq V c t) cover

end Cert.KernelIdeal.Msg

end
-- ==== Proof.KerBlocks1.lean ====
/-
  The update kernel's windows, block by block.

  The kernel runs over 20 grid points.  At point t the node-feature window, the aggregate window and the output
  window hold rows 5000 t .. 5000 t + 4999 of their 100,000-row arrays; the seven weight and bias windows hold
  their whole arrays at every point.  The output blocks tile the output array: row r belongs to point r / 5000.
-/
import proofs.«115854_j53644141527375_2_alg».proof.Proof.Gen.KernelIdeal.Frame
import Idealize.ShloMosaic.Lib.Pipeline.Value
import Idealize.ShloMosaic.Lib.ValueIdx

set_option maxRecDepth 16384

noncomputable section

namespace Cert.KernelIdeal.Upd

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the grid: the three row-blocked windows sit at block (t, 0), the others at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem tN (t : Fin cfg1.N) : t.val < 20 := by have h := t.isLt; have e : cfg1.N = 20 := N_1; omega

/-- Row p of the node-feature window's block at point t is row 5000 t + p of its array. -/
theorem blk0_apply (c : Dev nD) (t : Fin cfg1.N) (p : Fin 5000) (k : Fin 64) :
    iblk1 V c 0 t (ix2 p k) = V c main_v0 (ix2 (⟨t.val * 5000 + p.val, by have := tN t; have := p.isLt; omega⟩ : Fin 100000) k) := by
  obtain ⟨e0, e1, -⟩ := idx_facts t
  show V c main_v0 (((cfg1.win 0).blk t).view.emb (ix2 p k)) = _
  refine congrArg (V c main_v0) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

theorem blk1_apply (c : Dev nD) (t : Fin cfg1.N) (p : Fin 5000) (k : Fin 64) :
    iblk1 V c 1 t (ix2 p k) = V c main_v28 (ix2 (⟨t.val * 5000 + p.val, by have := tN t; have := p.isLt; omega⟩ : Fin 100000) k) := by
  obtain ⟨-, -, e0, e1, -⟩ := idx_facts t
  show V c main_v28 (((cfg1.win 1).blk t).view.emb (ix2 p k)) = _
  refine congrArg (V c main_v28) (funext fun a => Fin.ext ?_)
  match a with
  | ⟨0, _⟩ => show win1_1.index t (0 : Fin 2) * 5000 + 1 * p.val = t.val * 5000 + p.val; omega
  | ⟨1, _⟩ => show win1_1.index t (1 : Fin 2) * 64 + 1 * k.val = k.val; omega

/-- The weight and bias windows hold their whole arrays. -/
theorem blk2_apply (c : Dev nD) (t : Fin cfg1.N) (a : Fin 64) (b : Fin 64) : iblk1 V c 2 t (ix2 a b) = V c main_v29 (ix2 a b) := by
  obtain ⟨-, -, -, -, -, -, e0, e1, -⟩ := idx_facts t
  show V c main_v29 (((cfg1.win 2).blk t).view.emb (ix2 a b)) = _
  refine congrArg (V c main_v29) (funext fun d => Fin.ext ?_)
  match d with
  | ⟨0, _⟩ => show win1_2.index t (0 : Fin 2) * 64 + 1 * a.val = a.val; omega
  | ⟨1, _⟩ => show win1_2.index t (1 : Fin 2) * 64 + 1 * b.val = b.val; omega

theorem blk3_apply (c : Dev nD) (t : Fin cfg1.N) (a : Fin 64) (b : Fin 64) : iblk1 V c 3 t (ix2 a b) = V c main_v30 (ix2 a b) := by
  obtain ⟨-, -, -, -, -, -, -, -, e0, e1, -⟩ := idx_facts t
  show V c main_v30 (((cfg1.win 3).blk t).view.emb (ix2 a b)) = _
  refine congrArg (V c main_v30) (funext fun d => Fin.ext ?_)
  match d with
  | ⟨0, _⟩ => show win1_3.index t (0 : Fin 2) * 64 + 1 * a.val = a.val; omega
  | ⟨1, _⟩ => show win1_3.index t (1 : Fin 2) * 64 + 1 * b.val = b.val; omega

theorem blk4_apply (c : Dev nD) (t : Fin cfg1.N) (a : Fin 1) (b : Fin 64) : iblk1 V c 4 t (ix2 a b) = V c main_v31 (ix2 a b) := by
  obtain ⟨-, -, -, -, -, -, -, -, -, -, e0, e1, -⟩ := idx_facts t
  show V c main_v31 (((cfg1.win 4).blk t).view.emb (ix2 a b)) = _
  refine congrArg (V c main_v31) (funext fun d => Fin.ext ?_)
  match d with
  | ⟨0, _⟩ => show win1_4.index t (0 : Fin 2) * 1 + 1 * a.val = a.val; omega
  | ⟨1, _⟩ => show win1_4.index t (1 : Fin 2) * 64 + 1 * b.val = b.val; omega

theorem blk5_apply (c : Dev nD) (t : Fin cfg1.N) (a : Fin 64) (b : Fin 64) : iblk1 V c 5 t (ix2 a b) = V c main_arg9 (ix2 a b) := by
  obtain ⟨-, -, -, -, -, -, -, -, -, -, -, -, e0, e1, -⟩ := idx_facts t
  show V c main_arg9 (((cfg1.win 5).blk t).view.emb (ix2 a b)) = _
  refine congrArg (V c main_arg9) (funext fun d => Fin.ext ?_)
  match d with
  | ⟨0, _⟩ => show win1_5.index t (0 : Fin 2) * 64 + 1 * a.val = a.val; omega
  | ⟨1, _⟩ => show win1_5.index t (1 : Fin 2) * 64 + 1 * b.val = b.val; omega

theorem blk6_apply (c : Dev nD) (t : Fin cfg1.N) (a : Fin 1) (b : Fin 64) : iblk1 V c 6 t (ix2 a b) = V c main_v32 (ix2 a b) := by
  obtain ⟨-, -, -, -, -, -, -, -, -, -, -, -, -, -, e0, e1, -⟩ := idx_facts t
  show V c main_v32 (((cfg1.win 6).blk t).view.emb (ix2 a b)) = _
  refine congrArg (V c main_v32) (funext fun d => Fin.ext ?_)
  match d with
  | ⟨0, _⟩ => show win1_6.index t (0 : Fin 2) * 1 + 1 * a.val = a.val; omega
  | ⟨1, _⟩ => show win1_6.index t (1 : Fin 2) * 64 + 1 * b.val = b.val; omega

theorem blk7_apply (c : Dev nD) (t : Fin cfg1.N) (a : Fin 64) (b : Fin 32) : iblk1 V c 7 t (ix2 a b) = V c main_arg11 (ix2 a b) := by
  obtain ⟨-, -, -, -, -, -, -, -, -, -, -, -, -, -, -, -, e0, e1, -⟩ := idx_facts t
  show V c main_arg11 (((cfg1.win 7).blk t).view.emb (ix2 a b)) = _
  refine congrArg (V c main_arg11) (funext fun d => Fin.ext ?_)
  match d with
  | ⟨0, _⟩ => show win1_7.index t (0 : Fin 2) * 64 + 1 * a.val = a.val; omega
  | ⟨1, _⟩ => show win1_7.index t (1 : Fin 2) * 32 + 1 * b.val = b.val; omega

theorem blk8_apply (c : Dev nD) (t : Fin cfg1.N) (a : Fin 1) (b : Fin 32) : iblk1 V c 8 t (ix2 a b) = V c main_v33 (ix2 a b) := by
  obtain ⟨-, -, -, -, -, -, -, -, -, -, -, -, -, -, -, -, -, -, e0, e1⟩ := idx_facts t
  show V c main_v33 (((cfg1.win 8).blk t).view.emb (ix2 a b)) = _
  refine congrArg (V c main_v33) (funext fun d => Fin.ext ?_)
  match d with
  | ⟨0, _⟩ => show win1_8.index t (0 : Fin 2) * 1 + 1 * a.val = a.val; omega
  | ⟨1, _⟩ => show win1_8.index t (1 : Fin 2) * 32 + 1 * b.val = b.val; omega

/-- Where the output block's entry (p, q) at point t sits in the output array. -/
theorem out_emb (t : Fin cfg1.N) (p : Fin 5000) (q : Fin 32) :
    ((cfg1.win 9).blk t).view.emb (ix2 p q) = ix2 (⟨t.val * 5000 + p.val, by have := tN t; have := p.isLt; omega⟩ : Fin 100000) q := by
  obtain ⟨-, -, -, -, e0, e1, -⟩ := idx_facts t
  refine funext fun a => Fin.ext ?_
  match a with
  | ⟨0, _⟩ => show win1_9.index t (0 : Fin 2) * 5000 + 1 * p.val = t.val * 5000 + p.val; omega
  | ⟨1, _⟩ => show win1_9.index t (1 : Fin 2) * 32 + 1 * q.val = q.val; omega

/-- An index of the output array is in point t's block iff each coordinate is in the block's range on its axis. -/
theorem mem_blk (t : Fin cfg1.N) (i : S100000x32.Idx) :
    i ∈ ((cfg1.win 9).blk t).view.set ↔ ∀ a : Fin 2, win1_9.index t a * S5000x32.size a ≤ (i a).val ∧ (i a).val < win1_9.index t a * S5000x32.size a + S5000x32.size a := by
  show i ∈ ((View.whole main_v34).slice (win1_9.rect t)).set ↔ _
  rw [View.set_slice_whole, Rect.mem_set_unit]
  exact Iff.rfl

/-- Every index of the output array is in the block of the point its row belongs to. -/
theorem cover (i : S100000x32.Idx) : ∃ t : Fin cfg1.N, (cfg1.win 9).flush t = true ∧ i ∈ ((cfg1.win 9).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨-, -, -, -, e0, e1, -⟩ := idx_facts t
  have ht : t.val = (i 0).val / 5000 := rfl
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 32 ≤ (i 1).val ∧ (i 1).val < win1_9.index t (1 : Fin 2) * 32 + 32; omega

end Cert.KernelIdeal.Upd

end
-- ==== Proof.KerUpd.lean ====
/-
  The update kernel's output array, as one function of the arrays it is entered with.

  Point t writes back rows 5000 t .. 5000 t + 4999; entry (p, q) of what it writes is the linear head applied to
  the two-layer perceptron of Spec.lean of row p of the node-feature block and of the aggregate block.  The blocks
  tile the array, so the array ends holding, at every (node, output), that function of the node's two rows.
-/
import proofs.«115854_j53644141527375_2_alg».proof.Proof.KerBlocks1
import proofs.«115854_j53644141527375_2_alg».proof.Proof.KerPay
import proofs.«115854_j53644141527375_2_alg».proof.Proof.Spec

set_option maxRecDepth 16384

noncomputable section

namespace Cert.KernelIdeal.Upd

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The output array: at (node n, output j) the head of the perceptron of node n's feature row and aggregate row. -/
def updArr (h ag : S100000x64.Idx → Elt Ideal .f32) (wa wb : S64x64.Idx → Elt Ideal .f32) (b1 : S1x64.Idx → Elt Ideal .f32)
    (w2 : S64x64.Idx → Elt Ideal .f32) (b2 : S1x64.Idx → Elt Ideal .f32) (pw : S64x32.Idx → Elt Ideal .f32) (pb : S1x32.Idx → Elt Ideal .f32) :
    S100000x32.Idx → Elt Ideal .f32 :=
  fun i => Cert.Gnn.head (Cert.Gnn.mlpSplit (fun k => h (ix2 (⟨(i 0).val, idx2_lt0 i⟩ : Fin 100000) k)) (fun k => ag (ix2 (⟨(i 0).val, idx2_lt0 i⟩ : Fin 100000) k))
      (fun k' k => wa (ix2 k' k)) (fun k' k => wb (ix2 k' k)) (fun k => b1 (ix2 (0 : Fin 1) k))
      (fun k' k => w2 (ix2 k' k)) (fun k => b2 (ix2 (0 : Fin 1) k)))
    (fun k jj => pw (ix2 k jj)) (fun jj => pb (ix2 (0 : Fin 1) jj)) (⟨(i 1).val, idx2_lt1 i⟩ : Fin 32)

/-- What point t writes back is block t of the output array of the arrays the region is entered with. -/
theorem flushed_eq (c : Dev nD) (t : Fin cfg1.N) :
    (dat1 V c).flushed 9 t = ((cfg1.win 9).blk t).view.read (Elt Ideal)
      (updArr (V c main_v0) (V c main_v28) (V c main_v29) (V c main_v30) (V c main_v31) (V c main_arg9) (V c main_v32) (V c main_arg11) (V c main_v33)) := by
  show (cfg1.win 9).cut (grid1.coords t) ((dat1 V c).after 9 t) = _
  rw [after1_9]
  unfold out1_9
  rw [View.canon_unit_zero hz]
  simp only [View.ld_unit_zero (S := S5000x64) hz, View.ld_unit_zero (S := S64x64) hz, View.ld_unit_zero (S := S1x64) hz,
    View.ld_unit_zero (S := S64x32) hz, View.ld_unit_zero (S := S1x32) hz]
  funext j
  obtain ⟨p, q, rfl⟩ : ∃ (p : Fin 5000) (q : Fin 32), j = ix2 p q := ⟨j 0, j 1, eq_ix2 j⟩
  show k1_pay1 (F := Ideal) (k1_pay2 (F := Ideal) (iblk1 V c 0 t) (iblk1 V c 1 t) (iblk1 V c 2 t) (iblk1 V c 3 t) (iblk1 V c 4 t) (iblk1 V c 5 t) (iblk1 V c 6 t) (iblk1 V c 7 t)) (k1_pay3 (F := Ideal) (iblk1 V c 8 t)) (ix2 p q)
    = updArr (V c main_v0) (V c main_v28) (V c main_v29) (V c main_v30) (V c main_v31) (V c main_arg9) (V c main_v32) (V c main_arg11) (V c main_v33) (((cfg1.win 9).blk t).view.emb (ix2 p q))
  rw [out_emb t p q]
  refine (Cert.KernelIdeal.Pay.pay1_apply (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  unfold updArr
  simp only [blk0_apply V c t, blk1_apply V c t, blk2_apply V c t, blk3_apply V c t, blk4_apply V c t, blk5_apply V c t, blk6_apply V c t, blk7_apply V c t, blk8_apply V c t]

/-- The array the update kernel leaves. -/
theorem final (c : Dev nD) :
    (dat1 V c).arrAt 9 cfg1.N = updArr (V c main_v0) (V c main_v28) (V c main_v29) (V c main_v30) (V c main_v31) (V c main_arg9) (V c main_v32) (V c main_arg11) (V c main_v33) :=
  (dat1 V c).arrAt_eq_of_cover 9 _ (fun t _ => flushed_eq V c t) cover

end Cert.KernelIdeal.Upd

end
-- ==== Proof.KerOut.lean ====
/-
  The idealized kernel program's result array as one function of the thirteen argument arrays.

  Reading the segment boundaries back from the last one: the result is the update kernel's array (the head of the
  perceptron of each node's feature row and aggregate row) of the arrays the second host stretch leaves; the
  aggregate there is the scatter-add of the message kernel's array; and the message kernel's array is the perceptron
  of the two gathered feature rows of each edge, of the arrays the first host stretch leaves.
-/
import proofs.«115854_j53644141527375_2_alg».proof.Proof.KerHost
import proofs.«115854_j53644141527375_2_alg».proof.Proof.KerMsg
import proofs.«115854_j53644141527375_2_alg».proof.Proof.KerUpd

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

local notation "dr" => Proc.devRef (τ := τ) (sig := sig) Proc.tc

variable (m : (ℓ : Loc nD τ sig) → Buf (Elt Ideal) ℓ) (ρ : Dev nD → PrngReg)

/-- The message array of the arguments. -/
def msgOf (a0 a1 : (⟨S100000x32, .f32⟩ : BufTy).Contents (Elt Ideal)) (a2 : (⟨S2x1600000, .i32⟩ : BufTy).Contents (Elt Ideal))
    (a3 : (⟨S128x64, .f32⟩ : BufTy).Contents (Elt Ideal)) (a4 : (⟨S64, .f32⟩ : BufTy).Contents (Elt Ideal))
    (a5 : (⟨S64x64, .f32⟩ : BufTy).Contents (Elt Ideal)) (a6 : (⟨S64, .f32⟩ : BufTy).Contents (Elt Ideal)) :
    (⟨S1600000x64, .bf16⟩ : BufTy).Contents (Elt Ideal) :=
  Msg.msgArr (gatherRows (catH a0 a1) (wrapIdx (dstRow a2))) (gatherRows (catH a0 a1) (wrapIdx (srcRow a2)))
    (extractStridedSlice S64x64 ![0, 0] a3 slices_S128x64_S64x64_0_0) (extractStridedSlice S64x64 ![64, 0] a3 slices_S128x64_S64x64_64_0)
    (shapeCast _ a4 shapeCasts_S64_S1x64) a5 (shapeCast _ a6 shapeCasts_S64_S1x64)

/-- The result array of the arguments. -/
def kerOut (a0 a1 : (⟨S100000x32, .f32⟩ : BufTy).Contents (Elt Ideal)) (a2 : (⟨S2x1600000, .i32⟩ : BufTy).Contents (Elt Ideal))
    (a3 : (⟨S128x64, .f32⟩ : BufTy).Contents (Elt Ideal)) (a4 : (⟨S64, .f32⟩ : BufTy).Contents (Elt Ideal))
    (a5 : (⟨S64x64, .f32⟩ : BufTy).Contents (Elt Ideal)) (a6 : (⟨S64, .f32⟩ : BufTy).Contents (Elt Ideal))
    (a7 : (⟨S128x64, .f32⟩ : BufTy).Contents (Elt Ideal)) (a8 : (⟨S64, .f32⟩ : BufTy).Contents (Elt Ideal))
    (a9 : (⟨S64x64, .f32⟩ : BufTy).Contents (Elt Ideal)) (a10 : (⟨S64, .f32⟩ : BufTy).Contents (Elt Ideal))
    (a11 : (⟨S64x32, .f32⟩ : BufTy).Contents (Elt Ideal)) (a12 : (⟨S32, .f32⟩ : BufTy).Contents (Elt Ideal)) :
    (⟨S100000x32, .f32⟩ : BufTy).Contents (Elt Ideal) :=
  Upd.updArr (catH a0 a1) (aggregate (dstRow a2) (msgOf a0 a1 a2 a3 a4 a5 a6))
    (extractStridedSlice S64x64 ![0, 0] a7 slices_S128x64_S64x64_0_0) (extractStridedSlice S64x64 ![64, 0] a7 slices_S128x64_S64x64_64_0)
    (shapeCast _ a8 shapeCasts_S64_S1x64) a9 (shapeCast _ a10 shapeCasts_S64_S1x64) a11 (shapeCast _ a12 shapeCasts_S32_S1x32)

/-! ## The first boundary (the message kernel's entry), read at the launch memory -/

theorem V1_v0 (c : Dev nD) : V1 m ρ c main_v0 = catH (m ((c : Thread nD τ).loc main_arg0)) (m ((c : Thread nD τ).loc main_arg1)) :=
  h0_v0 (W0 m ρ c)
theorem V1_v5 (c : Dev nD) : V1 m ρ c main_v5 = dstRow (m ((c : Thread nD τ).loc main_arg2)) :=
  h0_v5 (W0 m ρ c)
theorem V1_v12 (c : Dev nD) : V1 m ρ c main_v12 = gatherRows (catH (m ((c : Thread nD τ).loc main_arg0)) (m ((c : Thread nD τ).loc main_arg1))) (wrapIdx (dstRow (m ((c : Thread nD τ).loc main_arg2)))) :=
  h0_v12 (W0 m ρ c)
theorem V1_v19 (c : Dev nD) : V1 m ρ c main_v19 = gatherRows (catH (m ((c : Thread nD τ).loc main_arg0)) (m ((c : Thread nD τ).loc main_arg1))) (wrapIdx (srcRow (m ((c : Thread nD τ).loc main_arg2)))) :=
  h0_v19 (W0 m ρ c)
theorem V1_v20 (c : Dev nD) : V1 m ρ c main_v20 = extractStridedSlice S64x64 ![0, 0] (m ((c : Thread nD τ).loc main_arg3)) slices_S128x64_S64x64_0_0 :=
  h0_v20 (W0 m ρ c)
theorem V1_v21 (c : Dev nD) : V1 m ρ c main_v21 = extractStridedSlice S64x64 ![64, 0] (m ((c : Thread nD τ).loc main_arg3)) slices_S128x64_S64x64_64_0 :=
  h0_v21 (W0 m ρ c)
theorem V1_v22 (c : Dev nD) : V1 m ρ c main_v22 = shapeCast _ (m ((c : Thread nD τ).loc main_arg4)) shapeCasts_S64_S1x64 :=
  h0_v22 (W0 m ρ c)
theorem V1_v23 (c : Dev nD) : V1 m ρ c main_v23 = shapeCast _ (m ((c : Thread nD τ).loc main_arg6)) shapeCasts_S64_S1x64 :=
  h0_v23 (W0 m ρ c)
theorem V1_arg5 (c : Dev nD) : V1 m ρ c main_arg5 = m ((c : Thread nD τ).loc main_arg5) := h0_arg5 (W0 m ρ c)
theorem V1_arg7 (c : Dev nD) : V1 m ρ c main_arg7 = m ((c : Thread nD τ).loc main_arg7) := h0_arg7 (W0 m ρ c)
theorem V1_arg8 (c : Dev nD) : V1 m ρ c main_arg8 = m ((c : Thread nD τ).loc main_arg8) := h0_arg8 (W0 m ρ c)
theorem V1_arg9 (c : Dev nD) : V1 m ρ c main_arg9 = m ((c : Thread nD τ).loc main_arg9) := h0_arg9 (W0 m ρ c)
theorem V1_arg10 (c : Dev nD) : V1 m ρ c main_arg10 = m ((c : Thread nD τ).loc main_arg10) := h0_arg10 (W0 m ρ c)
theorem V1_arg11 (c : Dev nD) : V1 m ρ c main_arg11 = m ((c : Thread nD τ).loc main_arg11) := h0_arg11 (W0 m ρ c)
theorem V1_arg12 (c : Dev nD) : V1 m ρ c main_arg12 = m ((c : Thread nD τ).loc main_arg12) := h0_arg12 (W0 m ρ c)

/-! ## The second boundary (the message kernel's exit) -/

/-- The message kernel's output array, of the arguments. -/
theorem W2_v24 (c : Dev nD) :
    W2 m ρ c (dr main_v24) = msgOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (W2_arr m ρ c 7).trans ?_
  rw [Msg.final (V1 m ρ) c, V1_v12, V1_v19, V1_v20, V1_v21, V1_v22, V1_arg5, V1_v23]
  rfl

theorem W2_v0 (c : Dev nD) : W2 m ρ c (dr main_v0) = catH (m ((c : Thread nD τ).loc main_arg0)) (m ((c : Thread nD τ).loc main_arg1)) :=
  (W2_of_ne m ρ c main_v0 (by decide)).trans (V1_v0 m ρ c)
theorem W2_v5 (c : Dev nD) : W2 m ρ c (dr main_v5) = dstRow (m ((c : Thread nD τ).loc main_arg2)) :=
  (W2_of_ne m ρ c main_v5 (by decide)).trans (V1_v5 m ρ c)
theorem W2_arg7 (c : Dev nD) : W2 m ρ c (dr main_arg7) = m ((c : Thread nD τ).loc main_arg7) :=
  (W2_of_ne m ρ c main_arg7 (by decide)).trans (V1_arg7 m ρ c)
theorem W2_arg8 (c : Dev nD) : W2 m ρ c (dr main_arg8) = m ((c : Thread nD τ).loc main_arg8) :=
  (W2_of_ne m ρ c main_arg8 (by decide)).trans (V1_arg8 m ρ c)
theorem W2_arg9 (c : Dev nD) : W2 m ρ c (dr main_arg9) = m ((c : Thread nD τ).loc main_arg9) :=
  (W2_of_ne m ρ c main_arg9 (by decide)).trans (V1_arg9 m ρ c)
theorem W2_arg10 (c : Dev nD) : W2 m ρ c (dr main_arg10) = m ((c : Thread nD τ).loc main_arg10) :=
  (W2_of_ne m ρ c main_arg10 (by decide)).trans (V1_arg10 m ρ c)
theorem W2_arg11 (c : Dev nD) : W2 m ρ c (dr main_arg11) = m ((c : Thread nD τ).loc main_arg11) :=
  (W2_of_ne m ρ c main_arg11 (by decide)).trans (V1_arg11 m ρ c)
theorem W2_arg12 (c : Dev nD) : W2 m ρ c (dr main_arg12) = m ((c : Thread nD τ).loc main_arg12) :=
  (W2_of_ne m ρ c main_arg12 (by decide)).trans (V1_arg12 m ρ c)

/-! ## The third boundary (the update kernel's entry) -/

theorem V3_v0 (c : Dev nD) : V3 m ρ c main_v0 = catH (m ((c : Thread nD τ).loc main_arg0)) (m ((c : Thread nD τ).loc main_arg1)) :=
  (h1_v0 (W2 m ρ c)).trans (W2_v0 m ρ c)
theorem V3_v28 (c : Dev nD) :
    V3 m ρ c main_v28 = aggregate (dstRow (m ((c : Thread nD τ).loc main_arg2)))
      (msgOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))) := by
  refine (h1_v28 (W2 m ρ c)).trans ?_
  rw [W2_v5, W2_v24]
theorem V3_v29 (c : Dev nD) : V3 m ρ c main_v29 = extractStridedSlice S64x64 ![0, 0] (m ((c : Thread nD τ).loc main_arg7)) slices_S128x64_S64x64_0_0 := by
  refine (h1_v29 (W2 m ρ c)).trans ?_; rw [W2_arg7]
theorem V3_v30 (c : Dev nD) : V3 m ρ c main_v30 = extractStridedSlice S64x64 ![64, 0] (m ((c : Thread nD τ).loc main_arg7)) slices_S128x64_S64x64_64_0 := by
  refine (h1_v30 (W2 m ρ c)).trans ?_; rw [W2_arg7]
theorem V3_v31 (c : Dev nD) : V3 m ρ c main_v31 = shapeCast _ (m ((c : Thread nD τ).loc main_arg8)) shapeCasts_S64_S1x64 := by
  refine (h1_v31 (W2 m ρ c)).trans ?_; rw [W2_arg8]
theorem V3_v32 (c : Dev nD) : V3 m ρ c main_v32 = shapeCast _ (m ((c : Thread nD τ).loc main_arg10)) shapeCasts_S64_S1x64 := by
  refine (h1_v32 (W2 m ρ c)).trans ?_; rw [W2_arg10]
theorem V3_v33 (c : Dev nD) : V3 m ρ c main_v33 = shapeCast _ (m ((c : Thread nD τ).loc main_arg12)) shapeCasts_S32_S1x32 := by
  refine (h1_v33 (W2 m ρ c)).trans ?_; rw [W2_arg12]
theorem V3_arg9 (c : Dev nD) : V3 m ρ c main_arg9 = m ((c : Thread nD τ).loc main_arg9) :=
  (h1_arg9 (W2 m ρ c)).trans (W2_arg9 m ρ c)
theorem V3_arg11 (c : Dev nD) : V3 m ρ c main_arg11 = m ((c : Thread nD τ).loc main_arg11) :=
  (h1_arg11 (W2 m ρ c)).trans (W2_arg11 m ρ c)

/-! ## The last boundary -/

/-- The result buffer at the last boundary is the result array of the arguments. -/
theorem W4_out (c : Dev nD) :
    W4 m ρ c (dr main_v34) = kerOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) (m ((c : Thread nD τ).loc main_arg12)) := by
  refine (W4_arr m ρ c 9).trans ?_
  rw [Upd.final (V3 m ρ) c, V3_v0, V3_v28, V3_v29, V3_v30, V3_v31, V3_arg9, V3_v32, V3_arg11, V3_v33]
  rfl

end Cert.KernelIdeal.Chain

end
-- ==== Proof.RefRows.lean ====
/-
  The reference program row by row.

  Each message row (one edge, 64 features) of the reference is the two-layer perceptron of Spec.lean applied to
  the two gathered end-node rows laid side by side; each output row (one node, 32 features) is the linear head
  of the same kind of perceptron applied to the node's own row laid beside the row of summed messages.

  The proof reads the program one operation at a time from the last to the first: a sum of two arrays at an
  index is the sum of the entries, a maximum likewise, a broadcast of a bias vector along the rows reads the
  bias at the column, a matrix product at (row, column) is the sum over the contracted index, and a
  concatenation of two 64-column arrays at column k reads the first array when k < 64 and the second at
  k - 64 otherwise, which is the side-by-side row of the specification.
-/
import proofs.«115854_j53644141527375_2_alg».proof.Proof.RefRead
import proofs.«115854_j53644141527375_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-! ## The message perceptron, one edge at a time -/

/-- The joined 128-feature row of edge e: columns below 64 read the first gathered row, the others the second. -/
theorem v19_row (x0 : (⟨S100000x32, .f32⟩ : BufTy).Contents (Elt Ideal)) (x1 : (⟨S100000x32, .f32⟩ : BufTy).Contents (Elt Ideal)) (x2 : (⟨S2x1600000, .i32⟩ : BufTy).Contents (Elt Ideal)) (e : Fin 1600000) (k' : Fin 128) :
    val_main_v19 (F := Ideal) x0 x1 x2 (ix2 e k') = Cert.Gnn.join (fun k => val_main_v11 (F := Ideal) x0 x1 x2 (ix2 e k)) (fun k => val_main_v18 (F := Ideal) x0 x1 x2 (ix2 e k)) k' := by
  unfold val_main_v19 Cert.Gnn.join
  generalize val_main_v11 (F := Ideal) x0 x1 x2 = y1
  generalize val_main_v18 (F := Ideal) x0 x1 x2 = y2
  by_cases h : k'.val < 64
  · rw [dif_pos h]
    exact concatenate_pair_apply_left (1 : Fin S1600000x128.rank) y1 y2 concatenates_S1600000x64_S1600000x64_S1600000x128_d1
      (ix2 e k') rfl (ix2 e ⟨k'.val, h⟩) (fun b => match b with | ⟨0, _⟩ => rfl | ⟨1, _⟩ => rfl)
  · rw [dif_neg h]
    exact concatenate_pair_apply_right (1 : Fin S1600000x128.rank) y1 y2 concatenates_S1600000x64_S1600000x64_S1600000x128_d1
      (ix2 e k') rfl rfl (ix2 e ⟨k'.val - 64, by have := k'.isLt; omega⟩)
      (fun b hb => match b, hb with | ⟨0, _⟩, _ => rfl | ⟨1, _⟩, hb => absurd rfl hb)
      (by show (k'.val - 64) + 64 = k'.val; omega)

/-- The hidden layer of edge e at feature k: the joined row against column k of the first matrix, plus the bias,
    cut below at the zero pattern's value. -/
theorem v24_row (x0 : (⟨S100000x32, .f32⟩ : BufTy).Contents (Elt Ideal)) (x1 : (⟨S100000x32, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (e : Fin 1600000) (k : Fin 64) :
    val_main_v24 (F := Ideal) x0 x1 x2 x3 x4 (ix2 e k)
      = max ((∑ k' : Fin 128, Cert.Gnn.join (fun k => val_main_v11 (F := Ideal) x0 x1 x2 (ix2 e k)) (fun k => val_main_v18 (F := Ideal) x0 x1 x2 (ix2 e k)) k' * x3 (ix2 k' k)) + x4 (ix1 k)) Cert.Gnn.Z := by
  rw [val_main_v24_apply, val_main_v23_apply, val_main_v20_apply, val_main_v22_apply, val_main_v21_apply,
    val_main_call0_v0_apply, val_main_call0_cst_apply, Ideal.maximumf_def, Ideal.addf_def, Ideal.ofBits_def]
  refine congrArg₂ max (congrArg₂ (· + ·) (Finset.sum_congr rfl fun k' _ => ?_) ?_) rfl
  · have hl : lidx_main_v20 (ix2 e k) k' = ix2 e k' := funext fun a => by match a with | ⟨0, _⟩ => rfl | ⟨1, _⟩ => rfl
    have hr : ridx_main_v20 (ix2 e k) k' = ix2 k' k := funext fun a => by match a with | ⟨0, _⟩ => rfl | ⟨1, _⟩ => rfl
    rw [hl, hr, v19_row]
  · exact congrArg x4 (funext fun a => by match a with | ⟨0, _⟩ => rfl)

/-- A message row of the reference is the perceptron on the joined row of the two gathered end-node rows. -/
theorem msg_apply (x0 : (⟨S100000x32, .f32⟩ : BufTy).Contents (Elt Ideal)) (x1 : (⟨S100000x32, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (e : Fin 1600000) (j : Fin 64) :
    val_main_v28 (F := Ideal) x0 x1 x2 x3 x4 x5 x6 (ix2 e j)
      = Cert.Gnn.mlpJoin (Cert.Gnn.join (fun k => val_main_v11 (F := Ideal) x0 x1 x2 (ix2 e k)) (fun k => val_main_v18 (F := Ideal) x0 x1 x2 (ix2 e k)))
          (fun k' k => x3 (ix2 k' k)) (fun k => x4 (ix1 k)) (fun k' k => x5 (ix2 k' k)) (fun k => x6 (ix1 k)) j := by
  rw [val_main_v28_apply, val_main_v25_apply, val_main_v27_apply, val_main_v26_apply, Ideal.addf_def]
  unfold Cert.Gnn.mlpJoin
  refine congrArg₂ (· + ·) (Finset.sum_congr rfl fun k _ => ?_) ?_
  · have hl : lidx_main_v25 (ix2 e j) k = ix2 e k := funext fun a => by match a with | ⟨0, _⟩ => rfl | ⟨1, _⟩ => rfl
    have hr : ridx_main_v25 (ix2 e j) k = ix2 k j := funext fun a => by match a with | ⟨0, _⟩ => rfl | ⟨1, _⟩ => rfl
    rw [hl, hr, v24_row]
  · exact congrArg x6 (funext fun a => by match a with | ⟨0, _⟩ => rfl)

/-! ## The update perceptron and the head, one node at a time -/

/-- The joined 128-feature row of node n: its own 64 features, then the 64 summed-message features. -/
theorem v32_row (x0 : (⟨S100000x32, .f32⟩ : BufTy).Contents (Elt Ideal)) (x1 : (⟨S100000x32, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (n : Fin 100000) (k' : Fin 128) :
    val_main_v32 (F := Ideal) x0 x1 x2 x3 x4 x5 x6 (ix2 n k') = Cert.Gnn.join (fun k => val_main_v0 (F := Ideal) x0 x1 (ix2 n k)) (fun k => val_main_v31 (F := Ideal) x0 x1 x2 x3 x4 x5 x6 (ix2 n k)) k' := by
  unfold val_main_v32 Cert.Gnn.join
  generalize val_main_v0 (F := Ideal) x0 x1 = y1
  generalize val_main_v31 (F := Ideal) x0 x1 x2 x3 x4 x5 x6 = y2
  by_cases h : k'.val < 64
  · rw [dif_pos h]
    exact concatenate_pair_apply_left (1 : Fin S100000x128.rank) y1 y2 concatenates_S100000x64_S100000x64_S100000x128_d1
      (ix2 n k') rfl (ix2 n ⟨k'.val, h⟩) (fun b => match b with | ⟨0, _⟩ => rfl | ⟨1, _⟩ => rfl)
  · rw [dif_neg h]
    exact concatenate_pair_apply_right (1 : Fin S100000x128.rank) y1 y2 concatenates_S100000x64_S100000x64_S100000x128_d1
      (ix2 n k') rfl rfl (ix2 n ⟨k'.val - 64, by have := k'.isLt; omega⟩)
      (fun b hb => match b, hb with | ⟨0, _⟩, _ => rfl | ⟨1, _⟩, hb => absurd rfl hb)
      (by show (k'.val - 64) + 64 = k'.val; omega)

/-- The hidden layer of node n at feature k. -/
theorem v37_row (x0 : (⟨S100000x32, .f32⟩ : BufTy).Contents (Elt Ideal)) (x1 : (⟨S100000x32, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (n : Fin 100000) (k : Fin 64) :
    val_main_v37 (F := Ideal) x0 x1 x2 x3 x4 x5 x6 x7 x8 (ix2 n k)
      = max ((∑ k' : Fin 128, Cert.Gnn.join (fun k => val_main_v0 (F := Ideal) x0 x1 (ix2 n k)) (fun k => val_main_v31 (F := Ideal) x0 x1 x2 x3 x4 x5 x6 (ix2 n k)) k' * x7 (ix2 k' k)) + x8 (ix1 k)) Cert.Gnn.Z := by
  rw [val_main_v37_apply, val_main_v36_apply, val_main_v33_apply, val_main_v35_apply, val_main_v34_apply,
    val_main_call1_v0_apply, val_main_call1_cst_apply, Ideal.maximumf_def, Ideal.addf_def, Ideal.ofBits_def]
  refine congrArg₂ max (congrArg₂ (· + ·) (Finset.sum_congr rfl fun k' _ => ?_) ?_) rfl
  · have hl : lidx_main_v33 (ix2 n k) k' = ix2 n k' := funext fun a => by match a with | ⟨0, _⟩ => rfl | ⟨1, _⟩ => rfl
    have hr : ridx_main_v33 (ix2 n k) k' = ix2 k' k := funext fun a => by match a with | ⟨0, _⟩ => rfl | ⟨1, _⟩ => rfl
    rw [hl, hr, v32_row]
  · exact congrArg x8 (funext fun a => by match a with | ⟨0, _⟩ => rfl)

/-- The updated row of node n at feature j: the perceptron on the joined row. -/
theorem v41_row (x0 : (⟨S100000x32, .f32⟩ : BufTy).Contents (Elt Ideal)) (x1 : (⟨S100000x32, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (n : Fin 100000) (j : Fin 64) :
    val_main_v41 (F := Ideal) x0 x1 x2 x3 x4 x5 x6 x7 x8 x9 x10 (ix2 n j)
      = Cert.Gnn.mlpJoin (Cert.Gnn.join (fun k => val_main_v0 (F := Ideal) x0 x1 (ix2 n k)) (fun k => val_main_v31 (F := Ideal) x0 x1 x2 x3 x4 x5 x6 (ix2 n k)))
          (fun k' k => x7 (ix2 k' k)) (fun k => x8 (ix1 k)) (fun k' k => x9 (ix2 k' k)) (fun k => x10 (ix1 k)) j := by
  rw [val_main_v41_apply, val_main_v38_apply, val_main_v40_apply, val_main_v39_apply, Ideal.addf_def]
  unfold Cert.Gnn.mlpJoin
  refine congrArg₂ (· + ·) (Finset.sum_congr rfl fun k _ => ?_) ?_
  · have hl : lidx_main_v38 (ix2 n j) k = ix2 n k := funext fun a => by match a with | ⟨0, _⟩ => rfl | ⟨1, _⟩ => rfl
    have hr : ridx_main_v38 (ix2 n j) k = ix2 k j := funext fun a => by match a with | ⟨0, _⟩ => rfl | ⟨1, _⟩ => rfl
    rw [hl, hr, v37_row]
  · exact congrArg x10 (funext fun a => by match a with | ⟨0, _⟩ => rfl)

/-- An output row of the reference is the linear head of the perceptron on the node's row joined with its summed messages. -/
theorem out_apply (x0 : (⟨S100000x32, .f32⟩ : BufTy).Contents (Elt Ideal)) (x1 : (⟨S100000x32, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) (n : Fin 100000) (j : Fin 32) :
    val_main_v45 (F := Ideal) x0 x1 x2 x3 x4 x5 x6 x7 x8 x9 x10 x11 x12 (ix2 n j)
      = Cert.Gnn.head (Cert.Gnn.mlpJoin (Cert.Gnn.join (fun k => val_main_v0 (F := Ideal) x0 x1 (ix2 n k)) (fun k => val_main_v31 (F := Ideal) x0 x1 x2 x3 x4 x5 x6 (ix2 n k)))
          (fun k' k => x7 (ix2 k' k)) (fun k => x8 (ix1 k)) (fun k' k => x9 (ix2 k' k)) (fun k => x10 (ix1 k))) (fun k jj => x11 (ix2 k jj)) (fun jj => x12 (ix1 jj)) j := by
  rw [val_main_v45_apply, val_main_v42_apply, val_main_v44_apply, val_main_v43_apply, Ideal.addf_def]
  unfold Cert.Gnn.head
  refine congrArg₂ (· + ·) (Finset.sum_congr rfl fun k _ => ?_) ?_
  · have hl : lidx_main_v42 (ix2 n j) k = ix2 n k := funext fun a => by match a with | ⟨0, _⟩ => rfl | ⟨1, _⟩ => rfl
    have hr : ridx_main_v42 (ix2 n j) k = ix2 k j := funext fun a => by match a with | ⟨0, _⟩ => rfl | ⟨1, _⟩ => rfl
    rw [hl, hr, v41_row]
  · exact congrArg x12 (funext fun a => by match a with | ⟨0, _⟩ => rfl)

end Cert.ReferenceIdeal.RefValue

end
-- ==== Proof.Bridge.lean ====
/-
  The two programs compute one function of the argument arrays.

  Both gather the same rows of the same node features (the kernel's program through a change of float format, the
  identity on the extended reals) and scatter-add the messages at the same destination rows; what differs is how
  the two perceptrons are written: the reference joins the two 64-feature rows and multiplies by the whole
  128 x 64 matrix, the kernel multiplies each half row by its half of the matrix and adds.  By the sum-splitting
  law of Spec.lean the message arrays agree entry by entry, hence the aggregates agree as arrays, hence the
  outputs agree entry by entry.
-/
import proofs.«115854_j53644141527375_2_alg».proof.Proof.KerOut
import proofs.«115854_j53644141527375_2_alg».proof.Proof.RefRows
import Idealize.ShloMosaic.Lib.ValueLayout

set_option maxRecDepth 16384

noncomputable section

namespace Cert.Bridge

open Idealize.ShloMosaic Idealize.ShloMosaic.ValueIdx
open Cert.KernelIdeal.Chain Cert.ReferenceIdeal.ReadP

variable (a0 a1 : (⟨Cert.KernelIdeal.S100000x32, .f32⟩ : BufTy).Contents (Elt Ideal)) (a2 : (⟨Cert.KernelIdeal.S2x1600000, .i32⟩ : BufTy).Contents (Elt Ideal))
    (a3 : (⟨Cert.KernelIdeal.S128x64, .f32⟩ : BufTy).Contents (Elt Ideal)) (a4 : (⟨Cert.KernelIdeal.S64, .f32⟩ : BufTy).Contents (Elt Ideal))
    (a5 : (⟨Cert.KernelIdeal.S64x64, .f32⟩ : BufTy).Contents (Elt Ideal)) (a6 : (⟨Cert.KernelIdeal.S64, .f32⟩ : BufTy).Contents (Elt Ideal))

/-! ## Congruences of the row functions -/

theorem mlpSplit_congr {a a' b b' : Fin 64 → EReal} {wa wa' wb wb' : Fin 64 → Fin 64 → EReal} {b1 b1' : Fin 64 → EReal}
    {w2 w2' : Fin 64 → Fin 64 → EReal} {b2 b2' : Fin 64 → EReal} (j : Fin 64)
    (ha : a = a') (hb : b = b') (hwa : wa = wa') (hwb : wb = wb') (hb1 : b1 = b1') (hw2 : w2 = w2') (hb2 : b2 = b2') :
    Cert.Gnn.mlpSplit a b wa wb b1 w2 b2 j = Cert.Gnn.mlpSplit a' b' wa' wb' b1' w2' b2' j := by
  subst ha hb hwa hwb hb1 hw2 hb2; rfl

theorem head_congr {u u' : Fin 64 → EReal} {pw pw' : Fin 64 → Fin 32 → EReal} {pb pb' : Fin 32 → EReal} (j : Fin 32)
    (hu : u = u') (hpw : pw = pw') (hpb : pb = pb') : Cert.Gnn.head u pw pb j = Cert.Gnn.head u' pw' pb' j := by
  subst hu hpw hpb; rfl

/-! ## The shared host arrays -/

/-- The node features are one concatenation. -/
theorem catH_eq : catH a0 a1 = val_main_v0 (F := Ideal) a0 a1 := rfl

/-- The rows gathered at the destination nodes: the change of float format is the identity. -/
theorem hi_eq : gatherRows (catH a0 a1) (wrapIdx (dstRow a2)) = val_main_v11 (F := Ideal) a0 a1 a2 := rfl

/-- The rows gathered at the source nodes. -/
theorem hj_eq : gatherRows (catH a0 a1) (wrapIdx (srcRow a2)) = val_main_v18 (F := Ideal) a0 a1 a2 := rfl

/-! ## Weights and biases at an index -/

theorem top_eq (w : (⟨Cert.KernelIdeal.S128x64, .f32⟩ : BufTy).Contents (Elt Ideal)) (k' k : Fin 64) :
    extractStridedSlice Cert.KernelIdeal.S64x64 ![0, 0] w Cert.KernelIdeal.Gen.slices_S128x64_S64x64_0_0 (ix2 k' k) = Cert.Gnn.top (fun k' k => w (ix2 k' k)) k' k :=
  slice2_axis0_apply 0 w _ k' k ⟨k'.val, by have := k'.isLt; omega⟩ (by show k'.val = 0 + k'.val; omega)

theorem bot_eq (w : (⟨Cert.KernelIdeal.S128x64, .f32⟩ : BufTy).Contents (Elt Ideal)) (k' k : Fin 64) :
    extractStridedSlice Cert.KernelIdeal.S64x64 ![64, 0] w Cert.KernelIdeal.Gen.slices_S128x64_S64x64_64_0 (ix2 k' k) = Cert.Gnn.bot (fun k' k => w (ix2 k' k)) k' k :=
  slice2_axis0_apply 64 w _ k' k ⟨k'.val + 64, by have := k'.isLt; omega⟩ (by show k'.val + 64 = 64 + k'.val; omega)

theorem bias_eq (b : (⟨Cert.KernelIdeal.S64, .f32⟩ : BufTy).Contents (Elt Ideal)) (k : Fin 64) :
    shapeCast Cert.KernelIdeal.S1x64 b Cert.KernelIdeal.Gen.shapeCasts_S64_S1x64 (ix2 (0 : Fin 1) k) = b (ix1 k) :=
  shapeCast_a_1a_apply b _ 0 k

theorem bias32_eq (b : (⟨Cert.KernelIdeal.S32, .f32⟩ : BufTy).Contents (Elt Ideal)) (k : Fin 32) :
    shapeCast Cert.KernelIdeal.S1x32 b Cert.KernelIdeal.Gen.shapeCasts_S32_S1x32 (ix2 (0 : Fin 1) k) = b (ix1 k) :=
  shapeCast_a_1a_apply b _ 0 k

/-! ## The messages -/

/-- The message arrays agree: entry by entry both are the perceptron of the edge's two gathered rows. -/
theorem msg_eq :
    extf (F := Ideal) (s := Cert.KernelIdeal.S1600000x64) (φ := .bf16) .f32 (msgOf a0 a1 a2 a3 a4 a5 a6) Cert.KernelIdeal.Gen.bitsLt_bf16_f32
      = val_main_v28 (F := Ideal) a0 a1 a2 a3 a4 a5 a6 := by
  funext i
  obtain ⟨e, j, rfl⟩ : ∃ (e : Fin 1600000) (j : Fin 64), i = ix2 e j := ⟨i 0, i 1, eq_ix2 i⟩
  rw [Cert.ReferenceIdeal.RefValue.msg_apply, Cert.Gnn.mlpJoin_join]
  show Cert.KernelIdeal.Msg.msgArr _ _ _ _ _ _ _ (ix2 e j) = _
  unfold Cert.KernelIdeal.Msg.msgArr
  exact mlpSplit_congr j
    (funext fun k => congrFun (hi_eq a0 a1 a2) (ix2 e k))
    (funext fun k => congrFun (hj_eq a0 a1 a2) (ix2 e k))
    (funext fun k' => funext fun k => top_eq a3 k' k)
    (funext fun k' => funext fun k => bot_eq a3 k' k)
    (funext fun k => bias_eq a4 k) rfl (funext fun k => bias_eq a6 k)

/-- So the aggregates agree as arrays: the same scatter-add of the same messages at the same rows. -/
theorem agg_eq : aggregate (dstRow a2) (msgOf a0 a1 a2 a3 a4 a5 a6) = val_main_v31 (F := Ideal) a0 a1 a2 a3 a4 a5 a6 := by
  unfold aggregate val_main_v31
  rw [msg_eq]
  rfl

/-! ## The outputs -/

/-- The two programs' result arrays are one function of the arguments. -/
theorem out_eq (a7 : (⟨Cert.KernelIdeal.S128x64, .f32⟩ : BufTy).Contents (Elt Ideal)) (a8 : (⟨Cert.KernelIdeal.S64, .f32⟩ : BufTy).Contents (Elt Ideal))
    (a9 : (⟨Cert.KernelIdeal.S64x64, .f32⟩ : BufTy).Contents (Elt Ideal)) (a10 : (⟨Cert.KernelIdeal.S64, .f32⟩ : BufTy).Contents (Elt Ideal))
    (a11 : (⟨Cert.KernelIdeal.S64x32, .f32⟩ : BufTy).Contents (Elt Ideal)) (a12 : (⟨Cert.KernelIdeal.S32, .f32⟩ : BufTy).Contents (Elt Ideal)) :
    kerOut a0 a1 a2 a3 a4 a5 a6 a7 a8 a9 a10 a11 a12 = val_main_v45 (F := Ideal) a0 a1 a2 a3 a4 a5 a6 a7 a8 a9 a10 a11 a12 := by
  funext i
  obtain ⟨n, j, rfl⟩ : ∃ (n : Fin 100000) (j : Fin 32), i = ix2 n j := ⟨i 0, i 1, eq_ix2 i⟩
  rw [Cert.ReferenceIdeal.RefValue.out_apply]
  unfold kerOut Cert.KernelIdeal.Upd.updArr
  refine head_congr j (funext fun jj => ?_) rfl (funext fun jj => bias32_eq a12 jj)
  rw [Cert.Gnn.mlpJoin_join]
  exact mlpSplit_congr jj
    (funext fun k => congrFun (catH_eq a0 a1) (ix2 n k))
    (funext fun k => congrFun (agg_eq a0 a1 a2 a3 a4 a5 a6) (ix2 n k))
    (funext fun k' => funext fun k => top_eq a7 k' k)
    (funext fun k' => funext fun k => bot_eq a7 k' k)
    (funext fun k => bias_eq a8 k) rfl (funext fun k => bias_eq a10 k)

end Cert.Bridge

end
-- ==== Proof.lean ====
/-
  The certificate's claims, assembled.

  The three frames: each kernel program's frame is its four-segment run (host operations, the message kernel over
  its 125 edge blocks, host operations, the update kernel over its 20 node blocks); the reference's is its
  straight-line run of host operations.  The idealization rewrote nothing, so there is nothing to preserve.  The
  algebraic claim: the idealized kernel program ends with its result array at one function of the thirteen argument
  arrays (the head of the perceptron of each node's features and aggregated messages), the idealized reference with
  its result at its own last stage of the same arguments, and the two are one function: a 128-term sum is the sum
  of its two 64-term halves.
-/
import proofs.«115854_j53644141527375_2_alg».proof.Defs
import proofs.«115854_j53644141527375_2_alg».proof.Proof.Gen.Kernel
import proofs.«115854_j53644141527375_2_alg».proof.Proof.Gen.Kernel.Frame
import proofs.«115854_j53644141527375_2_alg».proof.Proof.Gen.KernelIdeal
import proofs.«115854_j53644141527375_2_alg».proof.Proof.Gen.KernelIdeal.Frame
import proofs.«115854_j53644141527375_2_alg».proof.Proof.Gen.ReferenceIdeal
import proofs.«115854_j53644141527375_2_alg».proof.Proof.Gen.Pre_finite_inputs
import proofs.«115854_j53644141527375_2_alg».proof.Proof.KerRun
import proofs.«115854_j53644141527375_2_alg».proof.Proof.KerOut
import proofs.«115854_j53644141527375_2_alg».proof.Proof.RefRun
import proofs.«115854_j53644141527375_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end at one function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Chain.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.Chain.W4_out m ρ c), (h c).2⟩)
      (Cert.KernelIdeal.RunV.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [e0, e1, e2, e3, e4, e5, e6, e7, e8, e9, e10, e11, e12]
    exact (Cert.Bridge.out_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
